-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v75)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x800000 : Shape := ⟨2, ![2, 800000]⟩
abbrev S800000x8 : Shape := ⟨2, ![800000, 8]⟩
abbrev S50000x128 : Shape := ⟨2, ![50000, 128]⟩
abbrev S8x1 : Shape := ⟨2, ![8, 1]⟩
abbrev S1 : Shape := ⟨1, ![1]⟩
abbrev S128x256 : Shape := ⟨2, ![128, 256]⟩
abbrev S256 : Shape := ⟨1, ![256]⟩
abbrev S256x256 : Shape := ⟨2, ![256, 256]⟩
abbrev S_ : Shape := ⟨0, ![]⟩

class Facts : Prop where
  bcast_S_S800000x8 : S_.BroadcastsInDim S800000x8 (![] : Fin 0 → Fin S800000x8.rank)
  reducesTo_S800000x8_S_d0_1 : S800000x8.ReducesTo [0, 1] S_
  h_S_ : 0 < S_.numel
  bcast_S_S50000x128 : S_.BroadcastsInDim S50000x128 (![] : Fin 0 → Fin S50000x128.rank)
  reducesTo_S50000x128_S_d0_1 : S50000x128.ReducesTo [0, 1] S_
  bcast_S_S8x1 : S_.BroadcastsInDim S8x1 (![] : Fin 0 → Fin S8x1.rank)
  reducesTo_S8x1_S_d0_1 : S8x1.ReducesTo [0, 1] S_
  bcast_S_S1 : S_.BroadcastsInDim S1 (![] : Fin 0 → Fin S1.rank)
  reducesTo_S1_S_d0 : S1.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_

variable [Facts]

def fn_part2 {F : FTy → Type} [FloatOps F] (main_arg8 : FVec F S256 .f32) (main_arg9 : FVec F S128x256 .f32) (main_arg10 : FVec F S256 .f32) (main_v33 : IVec S_ 1) : IVec S_ 1 :=
  let main_v34 : FVec F S256 .f32 := Host.absf main_arg8
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S128x256 .f32 := Host.absf main_arg9
  let main_cst_14 : FVec F S_ .f32 := constant S_ .f32 0x7F800000#32
  let main_v40 : FVec F S128x256 .f32 := broadcastInDim S128x256 ![] bcast_S_S128x256 main_cst_14
  let main_v41 : IVec S128x256 1 := cmpf .olt main_v39 main_v40
  let main_c_15 : IVec S_ 1 := constantI S_ 1 1#1
  let main_v42 : IVec S_ 1 := (fun x v => Host.reduce IntOp.andi x v reducesTo_S128x256_S_d0_1 h_S_) main_v41 main_c_15
  let main_v43 : IVec S_ 1 := andi main_v38 main_v42
  let main_v44 : FVec F S256 .f32 := Host.absf main_arg10
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg5 : FVec F S128x256 .f32) (main_arg6 : FVec F S256 .f32) (main_arg7 : FVec F S256x256 .f32) (main_arg8 : FVec F S256 .f32) (main_arg9 : FVec F S128x256 .f32) (main_arg10 : FVec F S256 .f32) (main_v13 : IVec S_ 1) (main_v16 : IVec S1 1) : IVec S_ 1 :=
  let main_c_5 : IVec S_ 1 := constantI S_ 1 1#1
  let main_v17 : IVec S_ 1 := (fun x v => Host.reduce IntOp.andi x v reducesTo_S1_S_d0 h_S_) main_v16 main_c_5
  let main_v18 : IVec S_ 1 := andi main_v13 main_v17
  let main_v19 : FVec F S128x256 .f32 := Host.absf main_arg5
  let main_cst_6 : FVec F S_ .f32 := constant S_ .f32 0x7F800000#32
  let main_v20 : FVec F S128x256 .f32 := broadcastInDim S128x256 ![] bcast_S_S128x256 main_cst_6
  let main_v21 : IVec S128x256 1 := cmpf .olt main_v19 main_v20
  let main_c_7 : IVec S_ 1 := constantI S_ 1 1#1
  let main_v22 : IVec S_ 1 := (fun x v => Host.reduce IntOp.andi x v reducesTo_S128x256_S_d0_1 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg7
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg8 main_arg9 main_arg10 main_v33

def fn {F : FTy → Type} [FloatOps F] (main_arg0 : IVec S2x800000 32) (main_arg1 : FVec F S800000x8 .f32) (main_arg2 : FVec F S50000x128 .f32) (main_arg3 : FVec F S8x1 .f32) (main_arg4 : FVec F S1 .f32) (main_arg5 : FVec F S128x256 .f32) (main_arg6 : FVec F S256 .f32) (main_arg7 : FVec F S256x256 .f32) (main_arg8 : FVec F S256 .f32) (main_arg9 : FVec F S128x256 .f32) (main_arg10 : FVec F S256 .f32) : IVec S_ 1 :=
  let main_v0 : FVec F S800000x8 .f32 := Host.absf main_arg1
  let main_cst : FVec F S_ .f32 := constant S_ .f32 0x7F800000#32
  let main_v1 : FVec F S800000x8 .f32 := broadcastInDim S800000x8 ![] bcast_S_S800000x8 main_cst
  let main_v2 : IVec S800000x8 1 := cmpf .olt main_v0 main_v1
  let main_c : IVec S_ 1 := constantI S_ 1 1#1
  let main_v3 : IVec S_ 1 := (fun x v => Host.reduce IntOp.andi x v reducesTo_S800000x8_S_d0_1 h_S_) main_v2 main_c
  let main_v4 : FVec F S50000x128 .f32 := Host.absf main_arg2
  let main_cst_0 : FVec F S_ .f32 := constant S_ .f32 0x7F800000#32
  let main_v5 : FVec F S50000x128 .f32 := broadcastInDim S50000x128 ![] bcast_S_S50000x128 main_cst_0
  let main_v6 : IVec S50000x128 1 := cmpf .olt main_v4 main_v5
  let main_c_1 : IVec S_ 1 := constantI S_ 1 1#1
  let main_v7 : IVec S_ 1 := (fun x v => Host.reduce IntOp.andi x v reducesTo_S50000x128_S_d0_1 h_S_) main_v6 main_c_1
  let main_v8 : IVec S_ 1 := andi main_v3 main_v7
  let main_v9 : FVec F S8x1 .f32 := Host.absf main_arg3
  let main_cst_2 : FVec F S_ .f32 := constant S_ .f32 0x7F800000#32
  let main_v10 : FVec F S8x1 .f32 := broadcastInDim S8x1 ![] bcast_S_S8x1 main_cst_2
  let main_v11 : IVec S8x1 1 := cmpf .olt main_v9 main_v10
  let main_c_3 : IVec S_ 1 := constantI S_ 1 1#1
  let main_v12 : IVec S_ 1 := (fun x v => Host.reduce IntOp.andi x v reducesTo_S8x1_S_d0_1 h_S_) main_v11 main_c_3
  let main_v13 : IVec S_ 1 := andi main_v8 main_v12
  let main_v14 : FVec F S1 .f32 := Host.absf main_arg4
  let main_cst_4 : FVec F S_ .f32 := constant S_ .f32 0x7F800000#32
  let main_v15 : FVec F S1 .f32 := broadcastInDim S1 ![] bcast_S_S1 main_cst_4
  let main_v16 : IVec S1 1 := cmpf .olt main_v14 main_v15
  fn_part1 (F := F) main_arg5 main_arg6 main_arg7 main_arg8 main_arg9 main_arg10 main_v13 main_v16
-- ==== Kernel.lean ====
abbrev S2x800000 : Shape := ⟨2, ![2, 800000]⟩
abbrev S800000x8 : Shape := ⟨2, ![800000, 8]⟩
abbrev S50000x128 : Shape := ⟨2, ![50000, 128]⟩
abbrev S8x1 : Shape := ⟨2, ![8, 1]⟩
abbrev S1 : Shape := ⟨1, ![1]⟩
abbrev S128x256 : Shape := ⟨2, ![128, 256]⟩
abbrev S256 : Shape := ⟨1, ![256]⟩
abbrev S256x256 : Shape := ⟨2, ![256, 256]⟩
abbrev S1x8 : Shape := ⟨2, ![1, 8]⟩
abbrev S1x1 : Shape := ⟨2, ![1, 1]⟩
abbrev S800000x1 : Shape := ⟨2, ![800000, 1]⟩
abbrev S4000x8 : Shape := ⟨2, ![4000, 8]⟩
abbrev S4000x1 : Shape := ⟨2, ![4000, 1]⟩
abbrev S4000 : Shape := ⟨1, ![4000]⟩
abbrev S800000 : Shape := ⟨1, ![800000]⟩
abbrev S50000 : Shape := ⟨1, ![50000]⟩
abbrev S1x800000 : Shape := ⟨2, ![1, 800000]⟩
abbrev S850000 : Shape := ⟨1, ![850000]⟩
abbrev S_ : Shape := ⟨0, ![]⟩
abbrev S850000x1 : Shape := ⟨2, ![850000, 1]⟩
abbrev S128x512 : Shape := ⟨2, ![128, 512]⟩
abbrev S512 : Shape := ⟨1, ![512]⟩
abbrev S1x512 : Shape := ⟨2, ![1, 512]⟩
abbrev S50000x512 : Shape := ⟨2, ![50000, 512]⟩
abbrev S2000x128 : Shape := ⟨2, ![2000, 128]⟩
abbrev S2000x512 : Shape := ⟨2, ![2000, 512]⟩
abbrev S50000x256 : Shape := ⟨2, ![50000, 256]⟩
abbrev S850000x256 : Shape := ⟨2, ![850000, 256]⟩
abbrev S1x256 : Shape := ⟨2, ![1, 256]⟩
abbrev S2000x256 : Shape := ⟨2, ![2000, 256]⟩

abbrev nBuf : Space → Nat
  | .hbm => 108
  | .vmem => 25
  | .smem => 0
  | _ => 0

abbrev bufTy : (tb : Table) → Fin (tcTables nBuf tb) → BufTy
  | .hbm, ⟨0, _⟩ => ⟨S2x800000, .i32⟩
  | .hbm, ⟨1, _⟩ => ⟨S800000x8, .f32⟩
  | .hbm, ⟨2, _⟩ => ⟨S50000x128, .f32⟩
  | .hbm, ⟨3, _⟩ => ⟨S8x1, .f32⟩
  | .hbm, ⟨4, _⟩ => ⟨S1, .f32⟩
  | .hbm, ⟨5, _⟩ => ⟨S128x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S128x256, .f32⟩
  | .hbm, ⟨10, _⟩ => ⟨S256, .f32⟩
  | .hbm, ⟨11, _⟩ => ⟨S1x8, .f32⟩
  | .hbm, ⟨12, _⟩ => ⟨S1x1, .f32⟩
  | .hbm, ⟨13, _⟩ => ⟨S800000x1, .f32⟩
  | .hbm, ⟨14, _⟩ => ⟨S800000, .f32⟩
  | .hbm, ⟨15, _⟩ => ⟨S50000, .i32⟩
  | .hbm, ⟨16, _⟩ => ⟨S1x800000, .i32⟩
  | .hbm, ⟨17, _⟩ => ⟨S800000, .i32⟩
  | .hbm, ⟨18, _⟩ => ⟨S850000, .i32⟩
  | .hbm, ⟨19, _⟩ => ⟨S1x800000, .i32⟩
  | .hbm, ⟨20, _⟩ => ⟨S800000, .i32⟩
  | .hbm, ⟨21, _⟩ => ⟨S850000, .i32⟩
  | .hbm, ⟨22, _⟩ => ⟨S_, .f32⟩
  | .hbm, ⟨23, _⟩ => ⟨S50000, .f32⟩
  | .hbm, ⟨24, _⟩ => ⟨S850000, .f32⟩
  | .hbm, ⟨25, _⟩ => ⟨S_, .f32⟩
  | .hbm, ⟨26, _⟩ => ⟨S50000, .f32⟩
  | .hbm, ⟨27, _⟩ => ⟨S850000x1, .i32⟩
  | .hbm, ⟨28, _⟩ => ⟨S50000, .f32⟩
  | .hbm, ⟨29, _⟩ => ⟨S_, .f32⟩
  | .hbm, ⟨30, _⟩ => ⟨S50000, .f32⟩
  | .hbm, ⟨31, _⟩ => ⟨S50000, .i1⟩
  | .hbm, ⟨32, _⟩ => ⟨S_, .f32⟩
  | .hbm, ⟨33, _⟩ => ⟨S50000, .f32⟩
  | .hbm, ⟨34, _⟩ => ⟨S50000, .i1⟩
  | .hbm, ⟨35, _⟩ => ⟨S_, .f32⟩
  | .hbm, ⟨36, _⟩ => ⟨S_, .f32⟩
  | .hbm, ⟨37, _⟩ => ⟨S50000, .f32⟩
  | .hbm, ⟨38, _⟩ => ⟨S50000, .f32⟩
  | .hbm, ⟨39, _⟩ => ⟨S50000, .f32⟩
  | .hbm, ⟨40, _⟩ => ⟨S_, .f32⟩
  | .hbm, ⟨41, _⟩ => ⟨S_, .f32⟩
  | .hbm, ⟨42, _⟩ => ⟨S50000, .f32⟩
  | .hbm, ⟨43, _⟩ => ⟨S50000, .f32⟩
  | .hbm, ⟨44, _⟩ => ⟨S_, .i32⟩
  | .hbm, ⟨45, _⟩ => ⟨S850000, .i32⟩
  | .hbm, ⟨46, _⟩ => ⟨S850000, .i1⟩
  | .hbm, ⟨47, _⟩ => ⟨S_, .i32⟩
  | .hbm, ⟨48, _⟩ => ⟨S850000, .i32⟩
  | .hbm, ⟨49, _⟩ => ⟨S850000, .i32⟩
  | .hbm, ⟨50, _⟩ => ⟨S850000, .i32⟩
  | .hbm, ⟨51, _⟩ => ⟨S850000x1, .i32⟩
  | .hbm, ⟨52, _⟩ => ⟨S850000, .f32⟩
  | .hbm, ⟨53, _⟩ => ⟨S850000, .f32⟩
  | .hbm, ⟨54, _⟩ => ⟨S_, .i32⟩
  | .hbm, ⟨55, _⟩ => ⟨S850000, .i32⟩
  | .hbm, ⟨56, _⟩ => ⟨S850000, .i1⟩
  | .hbm, ⟨57, _⟩ => ⟨S_, .i32⟩
  | .hbm, ⟨58, _⟩ => ⟨S850000, .i32⟩
  | .hbm, ⟨59, _⟩ => ⟨S850000, .i32⟩
  | .hbm, ⟨60, _⟩ => ⟨S850000, .i32⟩
  | .hbm, ⟨61, _⟩ => ⟨S850000x1, .i32⟩
  | .hbm, ⟨62, _⟩ => ⟨S850000, .f32⟩
  | .hbm, ⟨63, _⟩ => ⟨S850000, .f32⟩
  | .hbm, ⟨64, _⟩ => ⟨S128x512, .f32⟩
  | .hbm, ⟨65, _⟩ => ⟨S_, .f32⟩
  | .hbm, ⟨66, _⟩ => ⟨S256, .f32⟩
  | .hbm, ⟨67, _⟩ => ⟨S512, .f32⟩
  | .hbm, ⟨68, _⟩ => ⟨S1x512, .f32⟩
  | .hbm, ⟨69, _⟩ => ⟨S50000x512, .f32⟩
  | .hbm, ⟨70, _⟩ => ⟨S50000x256, .f32⟩
  | .hbm, ⟨71, _⟩ => ⟨S50000x256, .f32⟩
  | .hbm, ⟨72, _⟩ => ⟨S850000x1, .f32⟩
  | .hbm, ⟨73, _⟩ => ⟨S_, .i32⟩
  | .hbm, ⟨74, _⟩ => ⟨S850000, .i32⟩
  | .hbm, ⟨75, _⟩ => ⟨S850000, .i1⟩
  | .hbm, ⟨76, _⟩ => ⟨S_, .i32⟩
  | .hbm, ⟨77, _⟩ => ⟨S850000, .i32⟩
  | .hbm, ⟨78, _⟩ => ⟨S850000, .i32⟩
  | .hbm, ⟨79, _⟩ => ⟨S850000, .i32⟩
  | .hbm, ⟨80, _⟩ => ⟨S850000x1, .i32⟩
  | .hbm, ⟨81, _⟩ => ⟨S850000x256, .f32⟩
  | .hbm, ⟨82, _⟩ => ⟨S850000x256, .f32⟩
  | .hbm, ⟨83, _⟩ => ⟨S850000x256, .f32⟩
  | .hbm, ⟨84, _⟩ => ⟨S_, .f32⟩
  | .hbm, ⟨85, _⟩ => ⟨S50000x256, .f32⟩
  | .hbm, ⟨86, _⟩ => ⟨S850000x1, .i32⟩
  | .hbm, ⟨87, _⟩ => ⟨S50000x256, .f32⟩
  | .hbm, ⟨88, _⟩ => ⟨S1x256, .f32⟩
  | .hbm, ⟨89, _⟩ => ⟨S50000x256, .f32⟩
  | .hbm, ⟨90, _⟩ => ⟨S850000x1, .f32⟩
  | .hbm, ⟨91, _⟩ => ⟨S_, .i32⟩
  | .hbm, ⟨92, _⟩ => ⟨S850000, .i32⟩
  | .hbm, ⟨93, _⟩ => ⟨S850000, .i1⟩
  | .hbm, ⟨94, _⟩ => ⟨S_, .i32⟩
  | .hbm, ⟨95, _⟩ => ⟨S850000, .i32⟩
  | .hbm, ⟨96, _⟩ => ⟨S850000, .i32⟩
  | .hbm, ⟨97, _⟩ => ⟨S850000, .i32⟩
  | .hbm, ⟨98, _⟩ => ⟨S850000x1, .i32⟩
  | .hbm, ⟨99, _⟩ => ⟨S850000x256, .f32⟩
  | .hbm, ⟨100, _⟩ => ⟨S850000x256, .f32⟩
  | .hbm, ⟨101, _⟩ => ⟨S850000x256, .f32⟩
  | .hbm, ⟨102, _⟩ => ⟨S_, .f32⟩
  | .hbm, ⟨103, _⟩ => ⟨S50000x256, .f32⟩
  | .hbm, ⟨104, _⟩ => ⟨S850000x1, .i32⟩
  | .hbm, ⟨105, _⟩ => ⟨S50000x256, .f32⟩
  | .hbm, ⟨106, _⟩ => ⟨S1x256, .f32⟩
  | .hbm, ⟨107, _⟩ => ⟨S50000x256, .f32⟩
  | .local _ .vmem, ⟨0, _⟩ => ⟨S4000x8, .f32⟩
  | .local _ .vmem, ⟨1, _⟩ => ⟨S4000x8, .f32⟩
  | .local _ .vmem, ⟨2, _⟩ => ⟨S1x8, .f32⟩
  | .local _ .vmem, ⟨3, _⟩ => ⟨S1x1, .f32⟩
  | .local _ .vmem, ⟨4, _⟩ => ⟨S4000x1, .f32⟩
  | .local _ .vmem, ⟨5, _⟩ => ⟨S4000x1, .f32⟩
  | .local _ .vmem, ⟨6, _⟩ => ⟨S2000x128, .f32⟩
  | .local _ .vmem, ⟨7, _⟩ => ⟨S2000x128, .f32⟩
  | .local _ .vmem, ⟨8, _⟩ => ⟨S128x512, .f32⟩
  | .local _ .vmem, ⟨9, _⟩ => ⟨S1x512, .f32⟩
  | .local _ .vmem, ⟨10, _⟩ => ⟨S2000x512, .f32⟩
  | .local _ .vmem, ⟨11, _⟩ => ⟨S2000x512, .f32⟩
  | .local _ .vmem, ⟨12, _⟩ => ⟨S2000x256, .f32⟩
  | .local _ .vmem, ⟨13, _⟩ => ⟨S2000x256, .f32⟩
  | .local _ .vmem, ⟨14, _⟩ => ⟨S1x256, .f32⟩
  | .local _ .vmem, ⟨15, _⟩ => ⟨S256x256, .f32⟩
  | .local _ .vmem, ⟨16, _⟩ => ⟨S2000x256, .f32⟩
  | .local _ .vmem, ⟨17, _⟩ => ⟨S2000x256, .f32⟩
  | .local _ .vmem, ⟨18, _⟩ => ⟨S2000x256, .f32⟩
  | .local _ .vmem, ⟨19, _⟩ => ⟨S2000x256, .f32⟩
  | .local _ .vmem, ⟨20, _⟩ => ⟨S1x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | _, _ => ⟨S2x800000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_1 : Ref sig .tc := ⟨.hbm, 29, rfl⟩
abbrev main_v16 : Ref sig .tc := ⟨.hbm, 30, rfl⟩
abbrev main_v17 : Ref sig .tc := ⟨.hbm, 31, rfl⟩
abbrev main_cst_2 : Ref sig .tc := ⟨.hbm, 32, rfl⟩
abbrev main_v18 : Ref sig .tc := ⟨.hbm, 33, rfl⟩
abbrev main_v19 : Ref sig .tc := ⟨.hbm, 34, rfl⟩
abbrev main_cst_3 : Ref sig .tc := ⟨.hbm, 35, rfl⟩
abbrev main_call0_v0 : Ref sig .tc := ⟨.hbm, 36, rfl⟩
abbrev main_call0_v1 : Ref sig .tc := ⟨.hbm, 37, rfl⟩
abbrev main_v20 : Ref sig .tc := ⟨.hbm, 38, rfl⟩
abbrev main_v21 : Ref sig .tc := ⟨.hbm, 39, rfl⟩
abbrev main_cst_4 : Ref sig .tc := ⟨.hbm, 40, rfl⟩
abbrev main_call1_v0 : Ref sig .tc := ⟨.hbm, 41, rfl⟩
abbrev main_call1_v1 : Ref sig .tc := ⟨.hbm, 42, rfl⟩
abbrev main_v22 : Ref sig .tc := ⟨.hbm, 43, rfl⟩
abbrev main_c : Ref sig .tc := ⟨.hbm, 44, rfl⟩
abbrev main_v23 : Ref sig .tc := ⟨.hbm, 45, rfl⟩
abbrev main_v24 : Ref sig .tc := ⟨.hbm, 46, rfl⟩
abbrev main_c_5 : Ref sig .tc := ⟨.hbm, 47, rfl⟩
abbrev main_v25 : Ref sig .tc := ⟨.hbm, 48, rfl⟩
abbrev main_v26 : Ref sig .tc := ⟨.hbm, 49, rfl⟩
abbrev main_v27 : Ref sig .tc := ⟨.hbm, 50, rfl⟩
abbrev main_v28 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_c_7 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_cst_8 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_c_9 : Ref sig .tc := ⟨.hbm, 73, rfl⟩
abbrev main_v47 : Ref sig .tc := ⟨.hbm, 74, rfl⟩
abbrev main_v48 : Ref sig .tc := ⟨.hbm, 75, rfl⟩
abbrev main_c_10 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst_11 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_12 : Ref sig .tc := ⟨.hbm, 91, rfl⟩
abbrev main_v62 : Ref sig .tc := ⟨.hbm, 92, rfl⟩
abbrev main_v63 : Ref sig .tc := ⟨.hbm, 93, rfl⟩
abbrev main_c_13 : Ref sig .tc := ⟨.hbm, 94, rfl⟩
abbrev main_v64 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_cst_14 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg2_0 : Ref sig .tc := ⟨.vmem, 21, rfl⟩
abbrev cc3_stg2_1 : Ref sig .tc := ⟨.vmem, 22, rfl⟩
abbrev cc3_stg3_0 : Ref sig .tc := ⟨.vmem, 23, rfl⟩
abbrev cc3_stg3_1 : Ref sig .tc := ⟨.vmem, 24, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17
abbrev cc3_sem0_0 : DmaSem sig := 18
abbrev cc3_sem0_1 : DmaSem sig := 19
abbrev cc3_sem1_0 : DmaSem sig := 20
abbrev cc3_sem2_0 : DmaSem sig := 21
abbrev cc3_sem2_1 : DmaSem sig := 22
abbrev cc3_sem3_0 : DmaSem sig := 23
abbrev cc3_sem3_1 : DmaSem sig := 24

abbrev nD : Nat := 1
abbrev τ : Topo := Topo.v7x

variable {F : FTy → Type} [FloatOps F]

abbrev grid0 : Pipeline.Grid := ⟨1, ![200], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x8 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4000x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x512 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x512 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x512 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S256x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x256 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S2000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S2000x256 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

class Facts₀ : Prop where
  transposes_S8x1_S1x8_1_0 : S8x1.Transposes [1, 0] S1x8
  shapeCasts_S1_S1x1 : S1.ShapeCasts S1x1
  inb_S4000x8_S4000x8_0_0 : ∀ a, (![0, 0] : Fin 2 → Nat) a + S4000x8.size a ≤ S4000x8.size a
  h_S4000x8 : 0 < S4000x8.numel
  inb_S1x8_S1x8_0_0 : ∀ a, (![0, 0] : Fin 2 → Nat) a + S1x8.size a ≤ S1x8.size a
  h_S1x8 : 0 < S1x8.numel
  shapeCasts_S1x8_S1x8 : S1x8.ShapeCasts S1x8
  broadcasts_S1x8_S4000x8 : S1x8.Broadcasts S4000x8
  reduces_S4000x8_S4000 : S4000x8.Reduces [1] S4000
  shapeCasts_S4000_S4000x1 : S4000.ShapeCasts S4000x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S4000x1 : S1x1.Broadcasts S4000x1
  inb_S4000x1_S4000x1_0_0 : ∀ a, (![0, 0] : Fin 2 → Nat) a + S4000x1.size a ≤ S4000x1.size a
  h_S4000x1 : 0 < S4000x1.numel
  shapeCasts_S800000x1_S800000 : S800000x1.ShapeCasts S800000
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  concatenates_S128x256_S128x256_S128x512_d1 : Shape.Concatenates [S128x256, S128x256] S128x512 1
  bcast_S_S256 : S_.BroadcastsInDim S256 (![] : Fin 0 → Fin S256.rank)
  concatenates_S256_S256_S512_d0 : Shape.Concatenates [S256, S256] S512 0
  shapeCasts_S512_S1x512 : S512.ShapeCasts S1x512
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x512_S128x512_0_0 : ∀ a, (![0, 0] : Fin 2 → Nat) a + S128x512.size a ≤ S128x512.size a
  h_S128x512 : 0 < S128x512.numel
  shapeCasts_S128x512_S128x512 : S128x512.ShapeCasts S128x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S2000x512 : S1x512.Broadcasts S2000x512
  inb_S2000x512_S2000x512_0_0 : ∀ a, (![0, 0] : Fin 2 → Nat) a + S2000x512.size a ≤ S2000x512.size a
  h_S2000x512 : 0 < S2000x512.numel
  slices_S50000x512_S50000x256_0_0 : S50000x512.Slices ![0, 0] S50000x256
  slices_S50000x512_S50000x256_0_256 : S50000x512.Slices ![0, 256] S50000x256
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S256x256_S256x256_0_0 : ∀ a, (![0, 0] : Fin 2 → Nat) a + S256x256.size a ≤ S256x256.size a
  h_S256x256 : 0 < S256x256.numel
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S2000x128_S128x512_S2000x512_1_0_0_1_n_n_wf : DotDims.WF S2000x128 S128x512 S2000x512 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x8.size a ≤ S800000x8.size a
  hwx0_0 : ∀ i : grid0.Coords, EltTy.bits .f32 = 32 ∨ (Rect.block (s := S800000x8) S4000x8.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x8.size a ≤ S1x8.size a
  hwx0_1 : ∀ i : grid0.Coords, EltTy.bits .f32 = 32 ∨ (Rect.block (s := S1x8) S1x8.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S4000x1.size a ≤ S800000x1.size a
  hwx0_3 : ∀ i : grid0.Coords, EltTy.bits .f32 = 32 ∨ (Rect.block (s := S800000x1) S4000x1.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x512.size a ≤ S128x512.size a
  hwx1_1 : ∀ i : grid1.Coords, EltTy.bits .f32 = 32 ∨ (Rect.block (s := S128x512) S128x512.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x512.size a ≤ S1x512.size a
  hwx1_2 : ∀ i : grid1.Coords, EltTy.bits .f32 = 32 ∨ (Rect.block (s := S1x512) S1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x512.size a ≤ S50000x512.size a
  hwx1_3 : ∀ i : grid1.Coords, EltTy.bits .f32 = 32 ∨ (Rect.block (s := S50000x512) S2000x512.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S50000x256.size a
  hwx2_0 : ∀ i : grid2.Coords, EltTy.bits .f32 = 32 ∨ (Rect.block (s := S50000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x256.size a ≤ S1x256.size a
  hwx2_1 : ∀ i : grid2.Coords, EltTy.bits .f32 = 32 ∨ (Rect.block (s := S1x256) S1x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S256x256.size a ≤ S256x256.size a
  hwx2_2 : ∀ i : grid2.Coords, EltTy.bits .f32 = 32 ∨ (Rect.block (s := S256x256) S256x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x256.size a ≤ S50000x256.size a
  hwx2_3 : ∀ i : grid2.Coords, EltTy.bits .f32 = 32 ∨ (Rect.block (s := S50000x256) S2000x256.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x256.size a ≤ S50000x256.size a
  hwx3_0 : ∀ i : grid3.Coords, EltTy.bits .f32 = 32 ∨ (Rect.block (s := S50000x256) S2000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x256.size a ≤ S1x256.size a
  hwx3_1 : ∀ i : grid3.Coords, EltTy.bits .f32 = 32 ∨ (Rect.block (s := S1x256) S1x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x256.size a ≤ S50000x256.size a
  hwx3_2 : ∀ i : grid3.Coords, EltTy.bits .f32 = 32 ∨ (Rect.block (s := S50000x256) S2000x256.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x256.size a ≤ S50000x256.size a
  hwx3_3 : ∀ i : grid3.Coords, EltTy.bits .f32 = 32 ∨ (Rect.block (s := S50000x256) S2000x256.size (cc3_transform_3 i) (hinb3_3 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S2000x128_S128x512_S2000x512_1_0_0_1_n_n : DotDims S2000x128 S128x512 S2000x512 where
  lhsContracting := [1]
  rhsContracting := [0]
  lhsNonContracting := [0]
  rhsNonContracting := [1]
  lhsBatch := []
  rhsBatch := []
  wf := dot_S2000x128_S128x512_S2000x512_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg1) S4000x8.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x8.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S4000x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg2) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v39) S128x512.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S1x512.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S2000x512.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v58) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v59) S1x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S256x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v60) S2000x256.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v73) S2000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v74) S1x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v45) S2000x256.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v75) S2000x256.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

class Facts : Prop extends Facts₀ where

variable [Facts]
-- ==== ReferenceIdeal.lean ====
abbrev S2x800000 : Shape := ⟨2, ![2, 800000]⟩
abbrev S800000x8 : Shape := ⟨2, ![800000, 8]⟩
abbrev S50000x128 : Shape := ⟨2, ![50000, 128]⟩
abbrev S8x1 : Shape := ⟨2, ![8, 1]⟩
abbrev S1 : Shape := ⟨1, ![1]⟩
abbrev S128x256 : Shape := ⟨2, ![128, 256]⟩
abbrev S256 : Shape := ⟨1, ![256]⟩
abbrev S256x256 : Shape := ⟨2, ![256, 256]⟩
abbrev S800000x1 : Shape := ⟨2, ![800000, 1]⟩
abbrev S1x1 : Shape := ⟨2, ![1, 1]⟩
abbrev S_ : Shape := ⟨0, ![]⟩
abbrev S800000 : Shape := ⟨1, ![800000]⟩
abbrev S50000 : Shape := ⟨1, ![50000]⟩
abbrev S1x800000 : Shape := ⟨2, ![1, 800000]⟩
abbrev S850000 : Shape := ⟨1, ![850000]⟩
abbrev S850000x1 : Shape := ⟨2, ![850000, 1]⟩
abbrev S50000x256 : Shape := ⟨2, ![50000, 256]⟩
abbrev S850000x256 : Shape := ⟨2, ![850000, 256]⟩
abbrev S1x256 : Shape := ⟨2, ![1, 256]⟩

abbrev nBuf : Space → Nat
  | .hbm => 125
  | .vmem => 0
  | .smem => 0
  | _ => 0

abbrev bufTy : (tb : Table) → Fin (tcTables nBuf tb) → BufTy
  | .hbm, ⟨0, _⟩ => ⟨S2x800000, .i32⟩
  | .hbm, ⟨1, _⟩ => ⟨S800000x8, .f32⟩
  | .hbm, ⟨2, _⟩ => ⟨S50000x128, .f32⟩
  | .hbm, ⟨3, _⟩ => ⟨S8x1, .f32⟩
  | .hbm, ⟨4, _⟩ => ⟨S1, .f32⟩
  | .hbm, ⟨5, _⟩ => ⟨S128x256, .f32⟩
  | .hbm, ⟨6, _⟩ => ⟨S256, .f32⟩
  | .hbm, ⟨7, _⟩ => ⟨S256x256, .f32⟩
  | .hbm, ⟨8, _⟩ => ⟨S256, .f32⟩
  | .hbm, ⟨9, _⟩ => ⟨S128x256, .f32⟩
  | .hbm, ⟨10, _⟩ => ⟨S256, .f32⟩
  | .hbm, ⟨11, _⟩ => ⟨S800000x1, .f32⟩
  | .hbm, ⟨12, _⟩ => ⟨S1x1, .f32⟩
  | .hbm, ⟨13, _⟩ => ⟨S800000x1, .f32⟩
  | .hbm, ⟨14, _⟩ => ⟨S800000x1, .f32⟩
  | .hbm, ⟨15, _⟩ => ⟨S_, .f32⟩
  | .hbm, ⟨16, _⟩ => ⟨S800000x1, .f32⟩
  | .hbm, ⟨17, _⟩ => ⟨S800000x1, .f32⟩
  | .hbm, ⟨18, _⟩ => ⟨S800000x1, .f32⟩
  | .hbm, ⟨19, _⟩ => ⟨S800000x1, .f32⟩
  | .hbm, ⟨20, _⟩ => ⟨S800000x1, .i1⟩
  | .hbm, ⟨21, _⟩ => ⟨S800000x1, .f32⟩
  | .hbm, ⟨22, _⟩ => ⟨S800000x1, .f32⟩
  | .hbm, ⟨23, _⟩ => ⟨S800000x1, .f32⟩
  | .hbm, ⟨24, _⟩ => ⟨S800000x1, .f32⟩
  | .hbm, ⟨25, _⟩ => ⟨S800000x1, .f32⟩
  | .hbm, ⟨26, _⟩ => ⟨S800000x1, .f32⟩
  | .hbm, ⟨27, _⟩ => ⟨S800000x1, .f32⟩
  | .hbm, ⟨28, _⟩ => ⟨S800000x1, .f32⟩
  | .hbm, ⟨29, _⟩ => ⟨S800000, .f32⟩
  | .hbm, ⟨30, _⟩ => ⟨S50000, .i32⟩
  | .hbm, ⟨31, _⟩ => ⟨S1x800000, .i32⟩
  | .hbm, ⟨32, _⟩ => ⟨S800000, .i32⟩
  | .hbm, ⟨33, _⟩ => ⟨S850000, .i32⟩
  | .hbm, ⟨34, _⟩ => ⟨S1x800000, .i32⟩
  | .hbm, ⟨35, _⟩ => ⟨S800000, .i32⟩
  | .hbm, ⟨36, _⟩ => ⟨S850000, .i32⟩
  | .hbm, ⟨37, _⟩ => ⟨S_, .f32⟩
  | .hbm, ⟨38, _⟩ => ⟨S50000, .f32⟩
  | .hbm, ⟨39, _⟩ => ⟨S850000, .f32⟩
  | .hbm, ⟨40, _⟩ => ⟨S_, .f32⟩
  | .hbm, ⟨41, _⟩ => ⟨S50000, .f32⟩
  | .hbm, ⟨42, _⟩ => ⟨S850000x1, .i32⟩
  | .hbm, ⟨43, _⟩ => ⟨S50000, .f32⟩
  | .hbm, ⟨44, _⟩ => ⟨S_, .f32⟩
  | .hbm, ⟨45, _⟩ => ⟨S50000, .f32⟩
  | .hbm, ⟨46, _⟩ => ⟨S50000, .i1⟩
  | .hbm, ⟨47, _⟩ => ⟨S_, .f32⟩
  | .hbm, ⟨48, _⟩ => ⟨S50000, .f32⟩
  | .hbm, ⟨49, _⟩ => ⟨S50000, .i1⟩
  | .hbm, ⟨50, _⟩ => ⟨S_, .f32⟩
  | .hbm, ⟨51, _⟩ => ⟨S_, .f32⟩
  | .hbm, ⟨52, _⟩ => ⟨S50000, .f32⟩
  | .hbm, ⟨53, _⟩ => ⟨S50000, .f32⟩
  | .hbm, ⟨54, _⟩ => ⟨S50000, .f32⟩
  | .hbm, ⟨55, _⟩ => ⟨S_, .f32⟩
  | .hbm, ⟨56, _⟩ => ⟨S_, .f32⟩
  | .hbm, ⟨57, _⟩ => ⟨S50000, .f32⟩
  | .hbm, ⟨58, _⟩ => ⟨S50000, .f32⟩
  | .hbm, ⟨59, _⟩ => ⟨S_, .i32⟩
  | .hbm, ⟨60, _⟩ => ⟨S850000, .i32⟩
  | .hbm, ⟨61, _⟩ => ⟨S850000, .i1⟩
  | .hbm, ⟨62, _⟩ => ⟨S_, .i32⟩
  | .hbm, ⟨63, _⟩ => ⟨S850000, .i32⟩
  | .hbm, ⟨64, _⟩ => ⟨S850000, .i32⟩
  | .hbm, ⟨65, _⟩ => ⟨S850000, .i32⟩
  | .hbm, ⟨66, _⟩ => ⟨S850000x1, .i32⟩
  | .hbm, ⟨67, _⟩ => ⟨S850000, .f32⟩
  | .hbm, ⟨68, _⟩ => ⟨S850000, .f32⟩
  | .hbm, ⟨69, _⟩ => ⟨S_, .i32⟩
  | .hbm, ⟨70, _⟩ => ⟨S850000, .i32⟩
  | .hbm, ⟨71, _⟩ => ⟨S850000, .i1⟩
  | .hbm, ⟨72, _⟩ => ⟨S_, .i32⟩
  | .hbm, ⟨73, _⟩ => ⟨S850000, .i32⟩
  | .hbm, ⟨74, _⟩ => ⟨S850000, .i32⟩
  | .hbm, ⟨75, _⟩ => ⟨S850000, .i32⟩
  | .hbm, ⟨76, _⟩ => ⟨S850000x1, .i32⟩
  | .hbm, ⟨77, _⟩ => ⟨S850000, .f32⟩
  | .hbm, ⟨78, _⟩ => ⟨S850000, .f32⟩
  | .hbm, ⟨79, _⟩ => ⟨S50000x256, .f32⟩
  | .hbm, ⟨80, _⟩ => ⟨S850000x1, .f32⟩
  | .hbm, ⟨81, _⟩ => ⟨S_, .i32⟩
  | .hbm, ⟨82, _⟩ => ⟨S850000, .i32⟩
  | .hbm, ⟨83, _⟩ => ⟨S850000, .i1⟩
  | .hbm, ⟨84, _⟩ => ⟨S_, .i32⟩
  | .hbm, ⟨85, _⟩ => ⟨S850000, .i32⟩
  | .hbm, ⟨86, _⟩ => ⟨S850000, .i32⟩
  | .hbm, ⟨87, _⟩ => ⟨S850000, .i32⟩
  | .hbm, ⟨88, _⟩ => ⟨S850000x1, .i32⟩
  | .hbm, ⟨89, _⟩ => ⟨S850000x256, .f32⟩
  | .hbm, ⟨90, _⟩ => ⟨S850000x256, .f32⟩
  | .hbm, ⟨91, _⟩ => ⟨S850000x256, .f32⟩
  | .hbm, ⟨92, _⟩ => ⟨S_, .f32⟩
  | .hbm, ⟨93, _⟩ => ⟨S50000x256, .f32⟩
  | .hbm, ⟨94, _⟩ => ⟨S850000x1, .i32⟩
  | .hbm, ⟨95, _⟩ => ⟨S50000x256, .f32⟩
  | .hbm, ⟨96, _⟩ => ⟨S1x256, .f32⟩
  | .hbm, ⟨97, _⟩ => ⟨S50000x256, .f32⟩
  | .hbm, ⟨98, _⟩ => ⟨S50000x256, .f32⟩
  | .hbm, ⟨99, _⟩ => ⟨S50000x256, .f32⟩
  | .hbm, ⟨100, _⟩ => ⟨S50000x256, .f32⟩
  | .hbm, ⟨101, _⟩ => ⟨S850000x1, .f32⟩
  | .hbm, ⟨102, _⟩ => ⟨S_, .i32⟩
  | .hbm, ⟨103, _⟩ => ⟨S850000, .i32⟩
  | .hbm, ⟨104, _⟩ => ⟨S850000, .i1⟩
  | .hbm, ⟨105, _⟩ => ⟨S_, .i32⟩
  | .hbm, ⟨106, _⟩ => ⟨S850000, .i32⟩
  | .hbm, ⟨107, _⟩ => ⟨S850000, .i32⟩
  | .hbm, ⟨108, _⟩ => ⟨S850000, .i32⟩
  | .hbm, ⟨109, _⟩ => ⟨S850000x1, .i32⟩
  | .hbm, ⟨110, _⟩ => ⟨S850000x256, .f32⟩
  | .hbm, ⟨111, _⟩ => ⟨S850000x256, .f32⟩
  | .hbm, ⟨112, _⟩ => ⟨S850000x256, .f32⟩
  | .hbm, ⟨113, _⟩ => ⟨S_, .f32⟩
  | .hbm, ⟨114, _⟩ => ⟨S50000x256, .f32⟩
  | .hbm, ⟨115, _⟩ => ⟨S850000x1, .i32⟩
  | .hbm, ⟨116, _⟩ => ⟨S50000x256, .f32⟩
  | .hbm, ⟨117, _⟩ => ⟨S1x256, .f32⟩
  | .hbm, ⟨118, _⟩ => ⟨S50000x256, .f32⟩
  | .hbm, ⟨119, _⟩ => ⟨S50000x256, .f32⟩
  | .hbm, ⟨120, _⟩ => ⟨S50000x256, .f32⟩
  | .hbm, ⟨121, _⟩ => ⟨S1x256, .f32⟩
  | .hbm, ⟨122, _⟩ => ⟨S50000x256, .f32⟩
  | .hbm, ⟨123, _⟩ => ⟨S50000x256, .f32⟩
  | .hbm, ⟨124, _⟩ => ⟨S50000x256, .f32⟩
  | _, _ => ⟨S2x800000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_call0_cst : Ref sig .tc := ⟨.hbm, 15, rfl⟩
abbrev main_call0_v0 : Ref sig .tc := ⟨.hbm, 16, rfl⟩
abbrev main_call0_v1 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_v6 : Ref sig .tc := ⟨.hbm, 22, rfl⟩
abbrev main_call0_v7 : Ref sig .tc := ⟨.hbm, 23, rfl⟩
abbrev main_call0_v8 : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_v4 : Ref sig .tc := ⟨.hbm, 28, rfl⟩
abbrev main_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_v11 : Ref sig .tc := ⟨.hbm, 35, rfl⟩
abbrev main_v12 : Ref sig .tc := ⟨.hbm, 36, rfl⟩
abbrev main_cst : Ref sig .tc := ⟨.hbm, 37, rfl⟩
abbrev main_v13 : Ref sig .tc := ⟨.hbm, 38, rfl⟩
abbrev main_v14 : Ref sig .tc := ⟨.hbm, 39, rfl⟩
abbrev main_cst_0 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_cst_1 : Ref sig .tc := ⟨.hbm, 44, rfl⟩
abbrev main_v18 : Ref sig .tc := ⟨.hbm, 45, rfl⟩
abbrev main_v19 : Ref sig .tc := ⟨.hbm, 46, rfl⟩
abbrev main_cst_2 : Ref sig .tc := ⟨.hbm, 47, rfl⟩
abbrev main_v20 : Ref sig .tc := ⟨.hbm, 48, rfl⟩
abbrev main_v21 : Ref sig .tc := ⟨.hbm, 49, rfl⟩
abbrev main_cst_3 : Ref sig .tc := ⟨.hbm, 50, rfl⟩
abbrev main_call1_v0 : Ref sig .tc := ⟨.hbm, 51, rfl⟩
abbrev main_call1_v1 : Ref sig .tc := ⟨.hbm, 52, rfl⟩
abbrev main_v22 : Ref sig .tc := ⟨.hbm, 53, rfl⟩
abbrev main_v23 : Ref sig .tc := ⟨.hbm, 54, rfl⟩
abbrev main_cst_4 : Ref sig .tc := ⟨.hbm, 55, rfl⟩
abbrev main_call2_v0 : Ref sig .tc := ⟨.hbm, 56, rfl⟩
abbrev main_call2_v1 : Ref sig .tc := ⟨.hbm, 57, rfl⟩
abbrev main_v24 : Ref sig .tc := ⟨.hbm, 58, rfl⟩
abbrev main_c : Ref sig .tc := ⟨.hbm, 59, rfl⟩
abbrev main_v25 : Ref sig .tc := ⟨.hbm, 60, rfl⟩
abbrev main_v26 : Ref sig .tc := ⟨.hbm, 61, rfl⟩
abbrev main_c_5 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_c_6 : Ref sig .tc := ⟨.hbm, 69, rfl⟩
abbrev main_v33 : Ref sig .tc := ⟨.hbm, 70, rfl⟩
abbrev main_v34 : Ref sig .tc := ⟨.hbm, 71, rfl⟩
abbrev main_c_7 : Ref sig .tc := ⟨.hbm, 72, rfl⟩
abbrev main_v35 : Ref sig .tc := ⟨.hbm, 73, rfl⟩
abbrev main_v36 : Ref sig .tc := ⟨.hbm, 74, rfl⟩
abbrev main_v37 : Ref sig .tc := ⟨.hbm, 75, rfl⟩
abbrev main_v38 : Ref sig .tc := ⟨.hbm, 76, rfl⟩
abbrev main_v39 : Ref sig .tc := ⟨.hbm, 77, rfl⟩
abbrev main_v40 : Ref sig .tc := ⟨.hbm, 78, rfl⟩
abbrev main_v41 : Ref sig .tc := ⟨.hbm, 79, rfl⟩
abbrev main_v42 : Ref sig .tc := ⟨.hbm, 80, rfl⟩
abbrev main_c_8 : Ref sig .tc := ⟨.hbm, 81, rfl⟩
abbrev main_v43 : Ref sig .tc := ⟨.hbm, 82, rfl⟩
abbrev main_v44 : Ref sig .tc := ⟨.hbm, 83, rfl⟩
abbrev main_c_9 : Ref sig .tc := ⟨.hbm, 84, rfl⟩
abbrev main_v45 : Ref sig .tc := ⟨.hbm, 85, rfl⟩
abbrev main_v46 : Ref sig .tc := ⟨.hbm, 86, rfl⟩
abbrev main_v47 : Ref sig .tc := ⟨.hbm, 87, rfl⟩
abbrev main_v48 : Ref sig .tc := ⟨.hbm, 88, rfl⟩
abbrev main_v49 : Ref sig .tc := ⟨.hbm, 89, rfl⟩
abbrev main_v50 : Ref sig .tc := ⟨.hbm, 90, rfl⟩
abbrev main_v51 : Ref sig .tc := ⟨.hbm, 91, rfl⟩
abbrev main_cst_10 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_v58 : Ref sig .tc := ⟨.hbm, 99, rfl⟩
abbrev main_v59 : Ref sig .tc := ⟨.hbm, 100, rfl⟩
abbrev main_v60 : Ref sig .tc := ⟨.hbm, 101, rfl⟩
abbrev main_c_11 : Ref sig .tc := ⟨.hbm, 102, rfl⟩
abbrev main_v61 : Ref sig .tc := ⟨.hbm, 103, rfl⟩
abbrev main_v62 : Ref sig .tc := ⟨.hbm, 104, rfl⟩
abbrev main_c_12 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_13 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_v79 : Ref sig .tc := ⟨.hbm, 123, rfl⟩
abbrev main_v80 : Ref sig .tc := ⟨.hbm, 124, rfl⟩

abbrev nD : Nat := 1
abbrev τ : Topo := Topo.v7x

variable {F : FTy → Type} [FloatOps F]

class Facts₀ : Prop where
  bcast_S1_S1x1_1 : S1.BroadcastsInDim S1x1 (![1] : Fin 1 → Fin S1x1.rank)
  bcast_S1x1_S800000x1_0_1 : S1x1.BroadcastsInDim S800000x1 (![0, 1] : Fin 2 → Fin S800000x1.rank)
  bcast_S_S800000x1 : S_.BroadcastsInDim S800000x1 (![] : Fin 0 → Fin S800000x1.rank)
  shapeCasts_S800000x1_S800000 : S800000x1.ShapeCasts S800000
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S50000 : S_.BroadcastsInDim S50000 (![] : Fin 0 → Fin S50000.rank)
  bcast_S850000_S850000x1_0 : S850000.BroadcastsInDim S850000x1 (![0] : Fin 1 → Fin S850000x1.rank)
  bcast_S_S850000 : S_.BroadcastsInDim S850000 (![] : Fin 0 → Fin S850000.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  dot_S800000x8_S8x1_S800000x1_1_0_0_1_n_n_wf : DotDims.WF S800000x8 S8x1 S800000x1 [1] [0] [0] [1] [] []
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  dot_S50000x256_S256x256_S50000x256_1_0_0_1_n_n_wf : DotDims.WF S50000x256 S256x256 S50000x256 [1] [0] [0] [1] [] []

variable [Facts₀]

def dot_S800000x8_S8x1_S800000x1_1_0_0_1_n_n : DotDims S800000x8 S8x1 S800000x1 where
  lhsContracting := [1]
  rhsContracting := [0]
  lhsNonContracting := [0]
  rhsNonContracting := [1]
  lhsBatch := []
  rhsBatch := []
  wf := dot_S800000x8_S8x1_S800000x1_1_0_0_1_n_n_wf
def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The run of the whole program with its result named. From any memory with zero counters every weakly fair execution
  of the program terminates without a fault; at the end the result buffer holds what the last boundary of the run holds
  there — the contents after the fourth launch's write-backs — and every argument array is as launched. What that
  last boundary holds is worked out, launch by launch and host stretch by host stretch, in the modules that follow.
-/
import proofs.«100858_j82222853914666_2_alg».proof.Proof.Gen.KernelIdeal.Frame

set_option maxRecDepth 16384

noncomputable section

namespace Cert.KernelIdeal.Result

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates, nothing faulting; the result buffer ends at the last boundary's contents
    and the arguments end as launched. -/
theorem run : θ_run defs (onTc (τ := τ) (main (F := F))) ⟨m, fun _ => 0, ρ⟩ (fun r => ∀ c : Dev nD,
      r.2.mem ((c.tc : Thread nD τ).loc main_v75) = W12 m ρ c (Proc.devRef .tc main_v75)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v75 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c),
       (h c _ (mem_uc main_arg8 (by decide))).trans (W12_main_arg8 m ρ c),
       (h c _ (mem_uc main_arg9 (by decide))).trans (W12_main_arg9 m ρ c),
       (h c _ (mem_uc main_arg10 (by decide))).trans (W12_main_arg10 m ρ c)⟩)

end Cert.KernelIdeal.Result

end
-- ==== Proof.LibKeepdims.lean ====
/-
  A row reduction kept as a column (`keepdims`), read by coordinates.

  A lane sum of an `[a, b]` array is, at row `p`, the sum over the lane coordinate `k` of the entry `(p, k)`.
  The sum is then re-laid: cast from `[a]` to the column `[a, 1]` (entry `(i, 0)` is entry `i`), and the column
  broadcast along its unit axis to `[a, b]` (entry `(p, c)` is the column's entry `(p, 0)`). Each lemma states one of
  these three readings at an index written by its coordinates, for any extents.
-/
import Idealize.ShloMosaic.Lib.Pipeline.Value
import Idealize.ShloMosaic.Lib.ValueIdx
import Idealize.ShloMosaic.PureOps.Ideal.Laws

namespace Cert.Keepdims

open Idealize.ShloMosaic Idealize.ShloMosaic.ValueIdx

variable {α : Type}

/-- An `[a]` array cast to the column `[a, 1]` reads, at `(i, u)`, the operand at `i`: both indices have row-major
    position `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_one, Shape.rowMajor_val_two]
    show i.val = i.val * 1 + u.val
    rw [hu, Nat.mul_one, Nat.add_zero])

/-- A column `[a, 1]` broadcast along its unit axis to `[a, b]` reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A float lane sum of an `[a, b]` array from the zero pattern, read at row `p`, is the sum over the lane coordinate
    `k` of the entry `(p, k)`: on the extended reals the sum has no order and the zero it starts from adds nothing. -/
theorem laneSum_apply {a b : ℕ} (src : FVec Ideal ⟨2, ![a, b]⟩ .f32)
    (h : (⟨2, ![a, b]⟩ : Shape).Reduces [1] ⟨1, ![a]⟩) (hφ : FKind.Formats .f32)
    (hacc : (0x00000000#32 : BitVec 32) = FKind.add.neutral .f32 hφ) (p : Fin a) :
    multiReduction .add [1] ⟨1, ![a]⟩ src 0x00000000#32 h hφ hacc (ix1 p) = ∑ k : Fin b, src (ix2 p k) := by
  refine (Ideal.multiReduction_add_single src _ h hφ hacc (ix1 p)).trans ?_
  refine Finset.sum_congr rfl fun k _ => congrArg src ?_
  funext d
  apply Fin.ext
  match d with
  | ⟨0, _⟩ => rfl
  | ⟨1, _⟩ => rfl

end Cert.Keepdims
-- ==== Proof.Softplus.lean ====
/-
  Softplus on the extended reals, and the two spellings of it that the programs print.

  Both programs compute  log (1 + exp x)  in the overflow-safe form  max x 0 + log1p (exp (−|x|)),  guarded by a test
  "x − 0 differs from itself" that selects x + 0 instead. On the extended reals no value differs from itself, so the
  guard never fires, whichever of the two printed comparison predicates spells it; subtracting the zero constant, adding
  it, and subtracting from it are the identity, the identity, and negation. So each spelling is the one function below.
-/
import Idealize.ShloMosaic.PureOps.Ideal
import Idealize.ShloMosaic.PureOps.Ideal.Laws
import Idealize.ShloMosaic.Lib.ValueIdx

noncomputable section

namespace Cert.Gcn

open Idealize.ShloMosaic

/-- log (1 + exp x), in the form both programs use. -/
def softplus (x : EReal) : EReal := max x 0 + Ideal.log1p (Ideal.exp (-(max x (-x))))

/-- No extended real differs from itself: the "ordered and unequal" test of a value against itself is the zero bit, -/
theorem cmp_one_self (a : EReal) : Ideal.cmp .one a a = 0#1 := by simp [Ideal.cmp]

/-- and so is the "unordered or unequal" test. -/
theorem cmp_une_self (a : EReal) : Ideal.cmp .une a a = 0#1 := by simp [Ideal.cmp]

/-- The spelling with the ordered test and the absolute value subtracted from the zero constant. -/
theorem softplus_of_sub_form (x z : EReal) (hz : z = 0) :
    Scalar.select (Ideal.cmp .one (x - z) (x - z)) (x + z)
      (max x z + Ideal.log1p (Ideal.exp (z - max (x - z) (-(x - z))))) = softplus x := by
  subst hz
  rw [cmp_one_self, ValueIdx.select_zero, sub_zero, zero_sub]
  rfl

/-- The spelling with the unordered test and the absolute value negated. -/
theorem softplus_of_neg_form (x z : EReal) (hz : z = 0) :
    Scalar.select (Ideal.cmp .une (x - z) (x - z)) (x + z)
      (max x z + Ideal.log1p (Ideal.exp (-(max (x - z) (-(x - z)))))) = softplus x := by
  subst hz
  rw [cmp_une_self, ValueIdx.select_zero, sub_zero]
  rfl

end Cert.Gcn

end
-- ==== Proof.EdgeWeight.lean ====
/-
  The first launch. Row block t (rows 4000·t … 4000·t + 3999) of its result, a column, is softplus of the edge logits
  of that block: the lane sum over the 8 edge features of feature times weight, plus the scalar bias. The lane sum kept
  as a column reads, at row p, Σₖ ef (p, k) · w (0, k); the printed softplus is the overflow-safe form with a guard
  that never fires on the extended reals. The 200 row blocks tile the 800000 rows: the whole result is the one function
  (r, 0) ↦ softplus (Σₖ ef (r, k) · w (0, k) + b (0, 0))  of the three arrays as the launch finds them.
-/
import proofs.«100858_j82222853914666_2_alg».proof.Proof.Gen.KernelIdeal.Frame
import proofs.«100858_j82222853914666_2_alg».proof.Proof.LibKeepdims
import proofs.«100858_j82222853914666_2_alg».proof.Proof.Softplus
import Idealize.ShloMosaic.Lib.Pipeline.Value
import Idealize.ShloMosaic.Lib.ValueIdx
import Idealize.ShloMosaic.Lib.ValueLayout

set_option maxRecDepth 16384

noncomputable section

namespace Cert.KernelIdeal.EdgeWeight

open Cert.KernelIdeal Cert.KernelIdeal.Gen Idealize.ShloMosaic Idealize.ShloMosaic.TcCoe Idealize.ShloMosaic.ValueIdx Idealize.SL.Sem
open Idealize.ShloMosaic.Pipeline (Dat Cfg Window)

/-- Softplus of (the row's features against the weight row, plus the bias), as a column. -/
def edgeWeight (ef : S800000x8.Idx → EReal) (w : S1x8.Idx → EReal) (b : S1x1.Idx → EReal) :
    S800000x1.Idx → EReal :=
  fun i => Cert.Gcn.softplus ((∑ k : Fin 8, ef (ix2 (i 0) k) * w (ix2 (0 : Fin 1) k)) + b (ix2 (0 : Fin 1) (0 : Fin 1)))

theorem zeroOffsets : (![0, 0] : Fin 2 → Nat) = fun _ => 0 := funext fun a => by fin_cases a <;> rfl

/-- The logits of one block, as the body computes them: the lane sum kept as a column, plus the bias splat. -/
def logits (x0 : Vec Ideal S4000x8 .f32) (x1 : Vec Ideal S1x8 .f32) (x2 : Vec Ideal S1x1 .f32) : FVec Ideal S4000x1 .f32 :=
  addf (shapeCast S4000x1 (multiReduction .add [1] S4000 (mulf x0 (broadcastTo S4000x8 x1 broadcasts_S1x8_S4000x8))
      0x00000000#32 reduces_S4000x8_S4000 (.inl rfl) rfl) shapeCasts_S4000_S4000x1)
    (broadcastTo S4000x1 x2 broadcasts_S1x1_S4000x1)

/-- A block's logit at row p. -/
theorem logits_apply (x0 : Vec Ideal S4000x8 .f32) (x1 : Vec Ideal S1x8 .f32) (x2 : Vec Ideal S1x1 .f32)
    (p : Fin 4000) (u : Fin 1) :
    logits x0 x1 x2 (ix2 p u) = (∑ k : Fin 8, x0 (ix2 p k) * x1 (ix2 (0 : Fin 1) k)) + x2 (ix2 (0 : Fin 1) (0 : Fin 1)) := by
  have hu : u = 0 := Subsingleton.elim _ _
  subst hu
  unfold logits
  show shapeCast S4000x1 (multiReduction (F := Ideal) .add [1] S4000 (mulf x0 (broadcastTo S4000x8 x1 broadcasts_S1x8_S4000x8))
      0x00000000#32 reduces_S4000x8_S4000 (.inl rfl) rfl) shapeCasts_S4000_S4000x1 (ix2 p (0 : Fin 1))
    + broadcastTo S4000x1 x2 broadcasts_S1x1_S4000x1 (ix2 p (0 : Fin 1)) = _
  refine congrArg₂ (· + ·) ?_ ?_
  · refine (Cert.Keepdims.shapeCast_a_a1_apply _ shapeCasts_S4000_S4000x1 p (0 : Fin 1)).trans ?_
    refine (Cert.Keepdims.laneSum_apply (mulf x0 (broadcastTo S4000x8 x1 broadcasts_S1x8_S4000x8))
      reduces_S4000x8_S4000 (.inl rfl) rfl p).trans ?_
    refine Finset.sum_congr rfl fun k _ => ?_
    show x0 (ix2 p k) * broadcastTo S4000x8 x1 broadcasts_S1x8_S4000x8 (ix2 p k) = _
    rw [broadcastTo_1b_ab_apply]
  · exact broadcastTo_1b_ab_apply x2 broadcasts_S1x1_S4000x1 p (0 : Fin 1)

/-- One block's stored value at row p: softplus of the logit. -/
theorem stored_apply (x0 : Vec Ideal S4000x8 .f32) (x1 : Vec Ideal S1x8 .f32) (x2 : Vec Ideal S1x1 .f32)
    (p : Fin 4000) (u : Fin 1) :
    k0_pay1 (F := Ideal) x0 x1 x2 (ix2 p u)
      = Cert.Gcn.softplus ((∑ k : Fin 8, x0 (ix2 p k) * x1 (ix2 (0 : Fin 1) k)) + x2 (ix2 (0 : Fin 1) (0 : Fin 1))) := by
  rw [← logits_apply x0 x1 x2 p u]
  unfold k0_pay1
  simp only [shapeCast_self]
  show Scalar.select
      (Ideal.cmp .one (logits x0 x1 x2 (ix2 p u) - Ideal.ofBits .f32 0x00000000#32) (logits x0 x1 x2 (ix2 p u) - Ideal.ofBits .f32 0x00000000#32))
      (logits x0 x1 x2 (ix2 p u) + Ideal.ofBits .f32 0x00000000#32)
      (max (logits x0 x1 x2 (ix2 p u)) (Ideal.ofBits .f32 0x00000000#32)
        + Ideal.log1p (Ideal.exp (Ideal.ofBits .f32 0x00000000#32
            - max (logits x0 x1 x2 (ix2 p u) - Ideal.ofBits .f32 0x00000000#32) (-(logits x0 x1 x2 (ix2 p u) - Ideal.ofBits .f32 0x00000000#32))))) = _
  exact Cert.Gcn.softplus_of_sub_form _ _ Ideal.ofBits_zero_f32

/-- The same, against whole arrays. -/
theorem stored_read (x0 : Vec Ideal S4000x8 .f32) (x1 : Vec Ideal S1x8 .f32) (x2 : Vec Ideal S1x1 .f32)
    (ef : S800000x8.Idx → EReal) (w : S1x8.Idx → EReal) (b : S1x1.Idx → EReal)
    (ρ : Fin 4000 → Fin 800000) (e : S4000x1.Idx → S800000x1.Idx)
    (h0 : ∀ (p : Fin 4000) (k : Fin 8), x0 (ix2 p k) = ef (ix2 (ρ p) k)) (h1 : ∀ y, x1 y = w y) (h2 : ∀ y, x2 y = b y)
    (he : ∀ (p : Fin 4000) (u : Fin 1), e (ix2 p u) = ix2 (ρ p) u) (j : S4000x1.Idx) :
    k0_pay1 (F := Ideal) x0 x1 x2 j = edgeWeight ef w b (e j) := by
  obtain ⟨p, u, rfl⟩ : ∃ (p : Fin 4000) (u : Fin 1), j = ix2 p u := ⟨j 0, j 1, eq_ix2 j⟩
  rw [stored_apply, he]
  show _ = Cert.Gcn.softplus ((∑ k : Fin 8, ef (ix2 (ρ p) k) * w (ix2 (0 : Fin 1) k)) + b (ix2 (0 : Fin 1) (0 : Fin 1)))
  simp only [h0, h1, h2]

section
variable (V : (c : Dev nD) → (b : Ref sig .tc) → Buf (Elt Ideal) ((c : Thread nD τ).loc b))

/-- Where each window's block sits at grid point t: the features and the result move together down the rows; the weight
    row and the bias stay. -/
theorem blockPositions : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- What grid point t writes back is block t of the whole-array function. -/
theorem flushed_eq (c : Dev nD) (t : Fin cfg0.N) :
    (dat0 V c).flushed 3 t = ((cfg0.win 3).blk t).view.read (Elt Ideal)
      (edgeWeight (V c main_arg1) (V c main_v0) (V c main_v1)) := by
  show (cfg0.win 3).cut (grid0.coords t) ((dat0 V c).after 3 t) = _
  rw [after0_3]
  unfold out0_3
  rw [View.canon_unit_zero zeroOffsets]
  simp only [View.ld_unit_zero (S := S4000x8) zeroOffsets, View.ld_unit_zero (S := S1x8) zeroOffsets,
    View.ld_unit_zero (S := S1x1) zeroOffsets]
  obtain ⟨e0, e1, e2, e3, e4, e5, e6, e7⟩ := blockPositions t
  have htN : t.val < 200 := by have h := t.isLt; have hN : cfg0.N = 200 := N_0; omega
  funext j
  refine stored_read (iblk0 V c 0 t) (iblk0 V c 1 t) (iblk0 V c 2 t) (V c main_arg1) (V c main_v0) (V c main_v1)
    (fun p => ⟨t.val * 4000 + p.val, by have := p.isLt; omega⟩)
    (((cfg0.win 3).blk t).view.emb) (fun p k => ?_) (fun y => ?_) (fun y => ?_) (fun p u => ?_) j
  · show V c main_arg1 (((cfg0.win 0).blk t).view.emb (ix2 p k)) = V c main_arg1 (ix2 ⟨t.val * 4000 + p.val, _⟩ k)
    refine congrArg _ (funext fun a => Fin.ext ?_)
    match a with
    | ⟨0, _⟩ => show win0_0.index t (0 : Fin 2) * 4000 + 1 * p.val = t.val * 4000 + p.val; omega
    | ⟨1, _⟩ => show win0_0.index t (1 : Fin 2) * 8 + 1 * k.val = k.val; omega
  · show V c main_v0 (((cfg0.win 1).blk t).view.emb y) = V c main_v0 y
    refine congrArg _ (funext fun a => Fin.ext ?_)
    match a with
    | ⟨0, _⟩ => show win0_1.index t (0 : Fin 2) * 1 + 1 * (y 0).val = (y 0).val; omega
    | ⟨1, _⟩ => show win0_1.index t (1 : Fin 2) * 8 + 1 * (y 1).val = (y 1).val; omega
  · show V c main_v1 (((cfg0.win 2).blk t).view.emb y) = V c main_v1 y
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 1 + 1 * (y 1).val = (y 1).val; omega
  · refine funext fun a => Fin.ext ?_
    match a with
    | ⟨0, _⟩ => show win0_3.index t (0 : Fin 2) * 4000 + 1 * p.val = t.val * 4000 + p.val; omega
    | ⟨1, _⟩ => show win0_3.index t (1 : Fin 2) * 1 + 1 * u.val = u.val; omega

/-- An index of the result is in point t's block iff each coordinate is in the block's range on its axis. -/
theorem mem_block (t : Fin cfg0.N) (i : S800000x1.Idx) :
    i ∈ ((cfg0.win 3).blk t).view.set ↔ ∀ a : Fin 2, win0_3.index t a * S4000x1.size a ≤ (i a).val
      ∧ (i a).val < win0_3.index t a * S4000x1.size a + S4000x1.size a := by
  show i ∈ ((View.whole main_v2).slice (win0_3.rect t)).set ↔ _
  rw [View.set_slice_whole, Rect.mem_set_unit]
  exact Iff.rfl

/-- Row r lies in the block of point r / 4000: the blocks cover the result. -/
theorem covered (i : S800000x1.Idx) :
    ∃ t : Fin cfg0.N, (cfg0.win 3).flush t = true ∧ i ∈ ((cfg0.win 3).blk t).view.set := by
  have hi0 : (i 0).val < 800000 := (i 0).isLt
  have hi1 : (i 1).val < 1 := (i 1).isLt
  have ht : (i 0).val / 4000 < cfg0.N := by show _ < grid0.N; rw [N_0]; omega
  obtain ⟨-, -, -, -, -, -, e6, e7⟩ := blockPositions ⟨(i 0).val / 4000, ht⟩
  have e6' : win0_3.index ⟨(i 0).val / 4000, ht⟩ (0 : Fin 2) = (i 0).val / 4000 := e6
  refine ⟨⟨(i 0).val / 4000, ht⟩, flush0_3 _, ?_⟩
  rw [mem_block]
  intro a
  match a with
  | ⟨0, _⟩ => show win0_3.index ⟨(i 0).val / 4000, ht⟩ (0 : Fin 2) * 4000 ≤ (i 0).val ∧ (i 0).val < win0_3.index ⟨(i 0).val / 4000, ht⟩ (0 : Fin 2) * 4000 + 4000; omega
  | ⟨1, _⟩ => show win0_3.index ⟨(i 0).val / 4000, ht⟩ (1 : Fin 2) * 1 ≤ (i 1).val ∧ (i 1).val < win0_3.index ⟨(i 0).val / 4000, ht⟩ (1 : Fin 2) * 1 + 1; omega

/-- The result array after the launch, whatever the launch found in its three input arrays. -/
theorem result (c : Dev nD) :
    (dat0 V c).arrAt 3 cfg0.N = edgeWeight (V c main_arg1) (V c main_v0) (V c main_v1) :=
  (dat0 V c).arrAt_eq_of_cover 3 _ (fun t _ => flushed_eq V c t) (covered)

end

end Cert.KernelIdeal.EdgeWeight

end
-- ==== Proof.LibPlainDot.lean ====
/-
  A plain matrix product read at an index, on the extended reals.

  For the dimension numbers of an M×K by K×N product (contract the left operand's axis 1 with the right operand's
  axis 0, no batch axis), the product at row `r`, column `n` is the sum over the K contraction positions of
  `l (r, k) · r' (k, n)`. The contraction index of the dimension record is a one-coordinate index; it is re-indexed by
  that coordinate, and the operand indices at an output index and a contraction position are read off coordinate by
  coordinate. Stated for a kernel's matrix unit accumulating into the zero splat and for a host `dot_general`.
-/
import Idealize.ShloMosaic.PureOps.Ideal
import Idealize.ShloMosaic.PureOps.Ideal.Laws
import Idealize.ShloMosaic.Lib.ValueIdx

noncomputable section

namespace Cert.LibPlainDot

open Idealize.ShloMosaic Idealize.ShloMosaic.ValueIdx

variable (M K N : Nat)

/-- The contraction shape of a plain product has one axis, -/
theorem contr_rank : (DotDims.plain M K N).contr.rank = 1 := rfl

/-- of extent K. -/
theorem contr_size : (DotDims.plain M K N).contr.size ⟨0, by rw [contr_rank]; exact Nat.one_pos⟩ = K := rfl

/-- The left operand's index at output index `j` and contraction position `k` is (row of `j`, `k`). -/
theorem lhsIdx_eq (j : (⟨2, ![M, N]⟩ : Shape).Idx) (k : Fin K) :
    (DotDims.plain M K N).lhsIdx j ((contrEquiv1 (DotDims.plain M K N) K (contr_rank M K N) (contr_size M K N)).symm k)
      = ix2 (j 0) k := by
  funext a
  apply Fin.ext
  match a with
  | ⟨0, _⟩ => rfl
  | ⟨1, _⟩ =>
    exact ((DotDims.plain M K N).lhsIdx_val_of_single (cl := 1) rfl j _).trans
      (contrEquiv1_symm_val (DotDims.plain M K N) K (contr_rank M K N) (contr_size M K N) k)

/-- The right operand's index at output index `j` and contraction position `k` is (`k`, column of `j`). -/
theorem rhsIdx_eq (j : (⟨2, ![M, N]⟩ : Shape).Idx) (k : Fin K) :
    (DotDims.plain M K N).rhsIdx j ((contrEquiv1 (DotDims.plain M K N) K (contr_rank M K N) (contr_size M K N)).symm k)
      = ix2 k (j 1) := by
  funext a
  apply Fin.ext
  match a with
  | ⟨0, _⟩ =>
    exact ((DotDims.plain M K N).rhsIdx_val_of_single (cr := 0) rfl j _).trans
      (contrEquiv1_symm_val (DotDims.plain M K N) K (contr_rank M K N) (contr_size M K N) k)
  | ⟨1, _⟩ => rfl

/-- The sum over the record's contraction index is the sum over the K positions. -/
theorem sum_contr (l : (⟨2, ![M, K]⟩ : Shape).Idx → EReal) (r : (⟨2, ![K, N]⟩ : Shape).Idx → EReal)
    (j : (⟨2, ![M, N]⟩ : Shape).Idx) :
    ∑ k : (DotDims.plain M K N).contr.Idx, l ((DotDims.plain M K N).lhsIdx j k) * r ((DotDims.plain M K N).rhsIdx j k)
      = ∑ k : Fin K, l (ix2 (j 0) k) * r (ix2 k (j 1)) := by
  rw [← Equiv.sum_comp (contrEquiv1 (DotDims.plain M K N) K (contr_rank M K N) (contr_size M K N)).symm]
  exact Finset.sum_congr rfl fun k _ =>
    congrArg₂ (fun a b => l a * r b) (lhsIdx_eq M K N j k) (rhsIdx_eq M K N j k)

/-- A kernel's matrix unit accumulating into the zero splat, at an index: the plain sum of products. -/
theorem matmul_zero_apply {φ₁ φ₂ : FTy} (prec : Option ContractPrecision)
    (l : FVec Ideal ⟨2, ![M, K]⟩ φ₁) (r : FVec Ideal ⟨2, ![K, N]⟩ φ₂) (j : (⟨2, ![M, N]⟩ : Shape).Idx) :
    FloatOps.matmul (DotDims.plain M K N) prec l r (constant ⟨2, ![M, N]⟩ .f32 0x00000000#32) j
      = ∑ k : Fin K, l (ix2 (j 0) k) * r (ix2 k (j 1)) :=
  (Ideal.matmul_constant_zero_apply (DotDims.plain M K N) prec l r j).trans (sum_contr M K N l r j)

/-- A host `dot_general` at an index: the same sum, whatever the precision and schedule keys. -/
theorem dotGeneral_apply {φ₁ φ₂ : FTy} (prec : Option ContractPrecision) (sched : HostSchedule)
    (l : FVec Ideal ⟨2, ![M, K]⟩ φ₁) (r : FVec Ideal ⟨2, ![K, N]⟩ φ₂) (j : (⟨2, ![M, N]⟩ : Shape).Idx) :
    FloatOps.dotGeneral (DotDims.plain M K N) prec sched l r j
      = ∑ k : Fin K, l (ix2 (j 0) k) * r (ix2 k (j 1)) :=
  (Ideal.dotGeneral_apply (DotDims.plain M K N) prec sched l r j).trans (sum_contr M K N l r j)

end Cert.LibPlainDot

end
-- ==== Proof.DenseTransform.lean ====
/-
  The second launch. Row block t (rows 2000·t … 2000·t + 1999) of its result is the block of node features times the
  whole 128 × 512 weight matrix, plus the bias row. On the extended reals the narrowing of both factors to a shorter
  float format is the identity and the matrix unit accumulating into zeros is the plain sum of products, so entry (p, q)
  of a block is  Σₖ x (p, k) · w (k, q) + b (0, q).  The 25 row blocks tile the 50000 rows: the whole result is the one
  function  (r, q) ↦ Σₖ x (r, k) · w (k, q) + b (0, q)  of the three arrays as the launch finds them.
-/
import proofs.«100858_j82222853914666_2_alg».proof.Proof.Gen.KernelIdeal.Frame
import proofs.«100858_j82222853914666_2_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.DenseTransform

open Cert.KernelIdeal Cert.KernelIdeal.Gen Idealize.ShloMosaic Idealize.ShloMosaic.TcCoe Idealize.ShloMosaic.ValueIdx Idealize.SL.Sem
open Idealize.ShloMosaic.Pipeline (Dat Cfg Window)

/-- A matrix product plus a bias row repeated down the rows, entry by entry. -/
def affine (x : S50000x128.Idx → EReal) (w : S128x512.Idx → EReal) (b : S1x512.Idx → EReal) :
    S50000x512.Idx → EReal :=
  fun i => (∑ k : Fin 128, x (ix2 (i 0) k) * w (ix2 k (i 1))) + b (ix2 (0 : Fin 1) (i 1))

theorem zeroOffsets : (![0, 0] : Fin 2 → Nat) = fun _ => 0 := funext fun a => by fin_cases a <;> rfl

/-- The printed dimension numbers are those of a plain 2000 × 128 by 128 × 512 product. -/
theorem dims_plain : dot_S2000x128_S128x512_S2000x512_1_0_0_1_n_n = DotDims.plain 2000 128 512 := rfl

/-- One block's stored value at row p, column q of the block. -/
theorem stored_apply (x0 : Vec Ideal S2000x128 .f32) (x1 : Vec Ideal S128x512 .f32) (x2 : Vec Ideal S1x512 .f32)
    (p : Fin 2000) (q : Fin 512) :
    k1_pay1 (F := Ideal) x0 x1 x2 (ix2 p q)
      = (∑ k : Fin 128, x0 (ix2 p k) * x1 (ix2 k q)) + x2 (ix2 (0 : Fin 1) q) := by
  unfold k1_pay1
  simp only [shapeCast_self]
  show FloatOps.matmul (F := Ideal) dot_S2000x128_S128x512_S2000x512_1_0_0_1_n_n none x0 x1 (constant S2000x512 .f32 0x00000000#32) (ix2 p q)
      + broadcastTo S2000x512 x2 broadcasts_S1x512_S2000x512 (ix2 p q) = _
  rw [dims_plain, Cert.LibPlainDot.matmul_zero_apply, broadcastTo_1b_ab_apply]

/-- The same, against whole arrays: if the loaded block of the first operand is rows ρ p of the array, the second and
    third are the whole weight matrix and bias row, and block index (p, q) sits at array index (ρ p, q), the stored
    block is the whole-array function read through that map. -/
theorem stored_read (x0 : Vec Ideal S2000x128 .f32) (x1 : Vec Ideal S128x512 .f32) (x2 : Vec Ideal S1x512 .f32)
    (x : S50000x128.Idx → EReal) (w : S128x512.Idx → EReal) (b : S1x512.Idx → EReal)
    (ρ : Fin 2000 → Fin 50000) (e : S2000x512.Idx → S50000x512.Idx)
    (h0 : ∀ (p : Fin 2000) (k : Fin 128), x0 (ix2 p k) = x (ix2 (ρ p) k)) (h1 : ∀ y, x1 y = w y) (h2 : ∀ y, x2 y = b y)
    (he : ∀ (p : Fin 2000) (q : Fin 512), e (ix2 p q) = ix2 (ρ p) q) (j : S2000x512.Idx) :
    k1_pay1 (F := Ideal) x0 x1 x2 j = affine x w b (e j) := by
  obtain ⟨p, q, rfl⟩ : ∃ (p : Fin 2000) (q : Fin 512), j = ix2 p q := ⟨j 0, j 1, eq_ix2 j⟩
  rw [stored_apply, he]
  show _ = (∑ k : Fin 128, x (ix2 (ρ p) k) * w (ix2 k q)) + b (ix2 (0 : Fin 1) q)
  simp only [h0, h1, h2]

section
variable (V : (c : Dev nD) → (b : Ref sig .tc) → Buf (Elt Ideal) ((c : Thread nD τ).loc b))

/-- Where each window's block sits at grid point t: the features and the result move together down the rows; the weight
    matrix and the bias row stay. -/
theorem blockPositions : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

/-- What grid point t writes back is block t of the whole-array function. -/
theorem flushed_eq (c : Dev nD) (t : Fin cfg1.N) :
    (dat1 V c).flushed 3 t = ((cfg1.win 3).blk t).view.read (Elt Ideal)
      (affine (V c main_arg2) (V c main_v39) (V c main_v42)) := by
  show (cfg1.win 3).cut (grid1.coords t) ((dat1 V c).after 3 t) = _
  rw [after1_3]
  unfold out1_3
  rw [View.canon_unit_zero zeroOffsets]
  simp only [View.ld_unit_zero (S := S2000x128) zeroOffsets, View.ld_unit_zero (S := S128x512) zeroOffsets,
    View.ld_unit_zero (S := S1x512) zeroOffsets]
  obtain ⟨e0, e1, e2, e3, e4, e5, e6, e7⟩ := blockPositions t
  have htN : t.val < 25 := by have h := t.isLt; have hN : cfg1.N = 25 := N_1; omega
  funext j
  refine stored_read (iblk1 V c 0 t) (iblk1 V c 1 t) (iblk1 V c 2 t) (V c main_arg2) (V c main_v39) (V c main_v42)
    (fun p => ⟨t.val * 2000 + p.val, by have := p.isLt; omega⟩)
    (((cfg1.win 3).blk t).view.emb) (fun p k => ?_) (fun y => ?_) (fun y => ?_) (fun p q => ?_) j
  · show V c main_arg2 (((cfg1.win 0).blk t).view.emb (ix2 p k)) = V c main_arg2 (ix2 ⟨t.val * 2000 + p.val, _⟩ k)
    refine congrArg _ (funext fun a => Fin.ext ?_)
    match a with
    | ⟨0, _⟩ => show win1_0.index t (0 : Fin 2) * 2000 + 1 * p.val = t.val * 2000 + p.val; omega
    | ⟨1, _⟩ => show win1_0.index t (1 : Fin 2) * 128 + 1 * k.val = k.val; omega
  · show V c main_v39 (((cfg1.win 1).blk t).view.emb y) = V c main_v39 y
    refine congrArg _ (funext fun a => Fin.ext ?_)
    match a with
    | ⟨0, _⟩ => show win1_1.index t (0 : Fin 2) * 128 + 1 * (y 0).val = (y 0).val; omega
    | ⟨1, _⟩ => show win1_1.index t (1 : Fin 2) * 512 + 1 * (y 1).val = (y 1).val; omega
  · show V c main_v42 (((cfg1.win 2).blk t).view.emb y) = V c main_v42 y
    refine congrArg _ (funext fun a => Fin.ext ?_)
    match a with
    | ⟨0, _⟩ => show win1_2.index t (0 : Fin 2) * 1 + 1 * (y 0).val = (y 0).val; omega
    | ⟨1, _⟩ => show win1_2.index t (1 : Fin 2) * 512 + 1 * (y 1).val = (y 1).val; omega
  · refine funext fun a => Fin.ext ?_
    match a with
    | ⟨0, _⟩ => show win1_3.index t (0 : Fin 2) * 2000 + 1 * p.val = t.val * 2000 + p.val; omega
    | ⟨1, _⟩ => show win1_3.index t (1 : Fin 2) * 512 + 1 * q.val = q.val; omega

/-- An index of the result is in point t's block iff each coordinate is in the block's range on its axis. -/
theorem mem_block (t : Fin cfg1.N) (i : S50000x512.Idx) :
    i ∈ ((cfg1.win 3).blk t).view.set ↔ ∀ a : Fin 2, win1_3.index t a * S2000x512.size a ≤ (i a).val
      ∧ (i a).val < win1_3.index t a * S2000x512.size a + S2000x512.size a := by
  show i ∈ ((View.whole main_v43).slice (win1_3.rect t)).set ↔ _
  rw [View.set_slice_whole, Rect.mem_set_unit]
  exact Iff.rfl

/-- Row r lies in the block of point r / 2000: the blocks cover the result. -/
theorem covered (i : S50000x512.Idx) :
    ∃ t : Fin cfg1.N, (cfg1.win 3).flush t = true ∧ i ∈ ((cfg1.win 3).blk t).view.set := by
  have hi0 : (i 0).val < 50000 := (i 0).isLt
  have hi1 : (i 1).val < 512 := (i 1).isLt
  have ht : (i 0).val / 2000 < cfg1.N := by show _ < grid1.N; rw [N_1]; omega
  obtain ⟨-, -, -, -, -, -, e6, e7⟩ := blockPositions ⟨(i 0).val / 2000, ht⟩
  have e6' : win1_3.index ⟨(i 0).val / 2000, ht⟩ (0 : Fin 2) = (i 0).val / 2000 := e6
  refine ⟨⟨(i 0).val / 2000, ht⟩, flush1_3 _, ?_⟩
  rw [mem_block]
  intro a
  match a with
  | ⟨0, _⟩ => show win1_3.index ⟨(i 0).val / 2000, ht⟩ (0 : Fin 2) * 2000 ≤ (i 0).val ∧ (i 0).val < win1_3.index ⟨(i 0).val / 2000, ht⟩ (0 : Fin 2) * 2000 + 2000; omega
  | ⟨1, _⟩ => show win1_3.index ⟨(i 0).val / 2000, ht⟩ (1 : Fin 2) * 512 ≤ (i 1).val ∧ (i 1).val < win1_3.index ⟨(i 0).val / 2000, ht⟩ (1 : Fin 2) * 512 + 512; omega

/-- The result array after the launch, whatever the launch found in its three input arrays. -/
theorem result (c : Dev nD) :
    (dat1 V c).arrAt 3 cfg1.N = affine (V c main_arg2) (V c main_v39) (V c main_v42) :=
  (dat1 V c).arrAt_eq_of_cover 3 _ (fun t _ => flushed_eq V c t) (covered)

end

end Cert.KernelIdeal.DenseTransform

end
-- ==== Proof.Layer2.lean ====
/-
  The third launch. Row block t of its result is  tanh (block of the aggregated matrix + bias row)  times the whole
  256 × 256 weight matrix. On the extended reals the narrowing of both factors is the identity and the matrix unit
  accumulating into zeros is the plain sum of products, so entry (p, q) of a block is
  Σₖ tanh (agg (p, k) + b (0, k)) · w (k, q).  The 25 row blocks tile the 50000 rows: the whole result is that one
  function of the three arrays as the launch finds them.
-/
import proofs.«100858_j82222853914666_2_alg».proof.Proof.Gen.KernelIdeal.Frame
import proofs.«100858_j82222853914666_2_alg».proof.Proof.LibPlainDot
import Idealize.ShloMosaic.Lib.Pipeline.Value
import Idealize.ShloMosaic.Lib.ValueIdx
import Idealize.ShloMosaic.Lib.ValueLayout

set_option maxRecDepth 16384

noncomputable section

namespace Cert.KernelIdeal.Layer2

open Cert.KernelIdeal Cert.KernelIdeal.Gen Idealize.ShloMosaic Idealize.ShloMosaic.TcCoe Idealize.ShloMosaic.ValueIdx Idealize.SL.Sem
open Idealize.ShloMosaic.Pipeline (Dat Cfg Window)

/-- tanh of (a matrix plus a bias row), times a weight matrix, entry by entry. -/
def layer (agg : S50000x256.Idx → EReal) (b : S1x256.Idx → EReal) (w : S256x256.Idx → EReal) :
    S50000x256.Idx → EReal :=
  fun i => ∑ k : Fin 256, Ideal.tanh (agg (ix2 (i 0) k) + b (ix2 (0 : Fin 1) k)) * w (ix2 k (i 1))

theorem zeroOffsets : (![0, 0] : Fin 2 → Nat) = fun _ => 0 := funext fun a => by fin_cases a <;> rfl

/-- The printed dimension numbers are those of a plain 2000 × 256 by 256 × 256 product. -/
theorem dims_plain : dot_S2000x256_S256x256_S2000x256_1_0_0_1_n_n = DotDims.plain 2000 256 256 := rfl

/-- One block's stored value at row p, column q of the block. -/
theorem stored_apply (x0 : Vec Ideal S2000x256 .f32) (x1 : Vec Ideal S1x256 .f32) (x2 : Vec Ideal S256x256 .f32)
    (p : Fin 2000) (q : Fin 256) :
    k2_pay1 (F := Ideal) x0 x1 x2 (ix2 p q)
      = ∑ k : Fin 256, Ideal.tanh (x0 (ix2 p k) + x1 (ix2 (0 : Fin 1) k)) * x2 (ix2 k q) := by
  unfold k2_pay1
  simp only [shapeCast_self]
  show FloatOps.matmul (F := Ideal) dot_S2000x256_S256x256_S2000x256_1_0_0_1_n_n none
      (fun i => Ideal.tanh (x0 i + broadcastTo S2000x256 x1 broadcasts_S1x256_S2000x256 i)) x2
      (constant S2000x256 .f32 0x00000000#32) (ix2 p q) = _
  rw [dims_plain, Cert.LibPlainDot.matmul_zero_apply]
  refine Finset.sum_congr rfl fun k _ => ?_
  show Ideal.tanh (x0 (ix2 p k) + broadcastTo S2000x256 x1 broadcasts_S1x256_S2000x256 (ix2 p k)) * x2 (ix2 k q) = _
  rw [broadcastTo_1b_ab_apply]

/-- The same, against whole arrays. -/
theorem stored_read (x0 : Vec Ideal S2000x256 .f32) (x1 : Vec Ideal S1x256 .f32) (x2 : Vec Ideal S256x256 .f32)
    (agg : S50000x256.Idx → EReal) (b : S1x256.Idx → EReal) (w : S256x256.Idx → EReal)
    (ρ : Fin 2000 → Fin 50000) (e : S2000x256.Idx → S50000x256.Idx)
    (h0 : ∀ (p : Fin 2000) (k : Fin 256), x0 (ix2 p k) = agg (ix2 (ρ p) k)) (h1 : ∀ y, x1 y = b y) (h2 : ∀ y, x2 y = w y)
    (he : ∀ (p : Fin 2000) (q : Fin 256), e (ix2 p q) = ix2 (ρ p) q) (j : S2000x256.Idx) :
    k2_pay1 (F := Ideal) x0 x1 x2 j = layer agg b w (e j) := by
  obtain ⟨p, q, rfl⟩ : ∃ (p : Fin 2000) (q : Fin 256), j = ix2 p q := ⟨j 0, j 1, eq_ix2 j⟩
  rw [stored_apply, he]
  show _ = ∑ k : Fin 256, Ideal.tanh (agg (ix2 (ρ p) k) + b (ix2 (0 : Fin 1) k)) * w (ix2 k q)
  simp only [h0, h1, h2]

section
variable (V : (c : Dev nD) → (b : Ref sig .tc) → Buf (Elt Ideal) ((c : Thread nD τ).loc b))

/-- Where each window's block sits at grid point t. -/
theorem blockPositions : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- What grid point t writes back is block t of the whole-array function. -/
theorem flushed_eq (c : Dev nD) (t : Fin cfg2.N) :
    (dat2 V c).flushed 3 t = ((cfg2.win 3).blk t).view.read (Elt Ideal)
      (layer (V c main_v58) (V c main_v59) (V c main_arg7)) := by
  show (cfg2.win 3).cut (grid2.coords t) ((dat2 V c).after 3 t) = _
  rw [after2_3]
  unfold out2_3
  rw [View.canon_unit_zero zeroOffsets]
  simp only [View.ld_unit_zero (S := S2000x256) zeroOffsets, View.ld_unit_zero (S := S1x256) zeroOffsets,
    View.ld_unit_zero (S := S256x256) zeroOffsets]
  obtain ⟨e0, e1, e2, e3, e4, e5, e6, e7⟩ := blockPositions t
  have htN : t.val < 25 := by have h := t.isLt; have hN : cfg2.N = 25 := N_2; omega
  funext j
  refine stored_read (iblk2 V c 0 t) (iblk2 V c 1 t) (iblk2 V c 2 t) (V c main_v58) (V c main_v59) (V c main_arg7)
    (fun p => ⟨t.val * 2000 + p.val, by have := p.isLt; omega⟩)
    (((cfg2.win 3).blk t).view.emb) (fun p k => ?_) (fun y => ?_) (fun y => ?_) (fun p q => ?_) j
  · show V c main_v58 (((cfg2.win 0).blk t).view.emb (ix2 p k)) = V c main_v58 (ix2 ⟨t.val * 2000 + p.val, _⟩ k)
    refine congrArg _ (funext fun a => Fin.ext ?_)
    match a with
    | ⟨0, _⟩ => show win2_0.index t (0 : Fin 2) * 2000 + 1 * p.val = t.val * 2000 + p.val; omega
    | ⟨1, _⟩ => show win2_0.index t (1 : Fin 2) * 256 + 1 * k.val = k.val; omega
  · show V c main_v59 (((cfg2.win 1).blk t).view.emb y) = V c main_v59 y
    refine congrArg _ (funext fun a => Fin.ext ?_)
    match a with
    | ⟨0, _⟩ => show win2_1.index t (0 : Fin 2) * 1 + 1 * (y 0).val = (y 0).val; omega
    | ⟨1, _⟩ => show win2_1.index t (1 : Fin 2) * 256 + 1 * (y 1).val = (y 1).val; omega
  · show V c main_arg7 (((cfg2.win 2).blk t).view.emb y) = V c main_arg7 y
    refine congrArg _ (funext fun a => Fin.ext ?_)
    match a with
    | ⟨0, _⟩ => show win2_2.index t (0 : Fin 2) * 256 + 1 * (y 0).val = (y 0).val; omega
    | ⟨1, _⟩ => show win2_2.index t (1 : Fin 2) * 256 + 1 * (y 1).val = (y 1).val; omega
  · refine funext fun a => Fin.ext ?_
    match a with
    | ⟨0, _⟩ => show win2_3.index t (0 : Fin 2) * 2000 + 1 * p.val = t.val * 2000 + p.val; omega
    | ⟨1, _⟩ => show win2_3.index t (1 : Fin 2) * 256 + 1 * q.val = q.val; omega

/-- An index of the result is in point t's block iff each coordinate is in the block's range on its axis. -/
theorem mem_block (t : Fin cfg2.N) (i : S50000x256.Idx) :
    i ∈ ((cfg2.win 3).blk t).view.set ↔ ∀ a : Fin 2, win2_3.index t a * S2000x256.size a ≤ (i a).val
      ∧ (i a).val < win2_3.index t a * S2000x256.size a + S2000x256.size a := by
  show i ∈ ((View.whole main_v60).slice (win2_3.rect t)).set ↔ _
  rw [View.set_slice_whole, Rect.mem_set_unit]
  exact Iff.rfl

/-- Row r lies in the block of point r / 2000: the blocks cover the result. -/
theorem covered (i : S50000x256.Idx) :
    ∃ t : Fin cfg2.N, (cfg2.win 3).flush t = true ∧ i ∈ ((cfg2.win 3).blk t).view.set := by
  have hi0 : (i 0).val < 50000 := (i 0).isLt
  have hi1 : (i 1).val < 256 := (i 1).isLt
  have ht : (i 0).val / 2000 < cfg2.N := by show _ < grid2.N; rw [N_2]; omega
  obtain ⟨-, -, -, -, -, -, e6, e7⟩ := blockPositions ⟨(i 0).val / 2000, ht⟩
  have e6' : win2_3.index ⟨(i 0).val / 2000, ht⟩ (0 : Fin 2) = (i 0).val / 2000 := e6
  refine ⟨⟨(i 0).val / 2000, ht⟩, flush2_3 _, ?_⟩
  rw [mem_block]
  intro a
  match a with
  | ⟨0, _⟩ => show win2_3.index ⟨(i 0).val / 2000, ht⟩ (0 : Fin 2) * 2000 ≤ (i 0).val ∧ (i 0).val < win2_3.index ⟨(i 0).val / 2000, ht⟩ (0 : Fin 2) * 2000 + 2000; omega
  | ⟨1, _⟩ => show win2_3.index ⟨(i 0).val / 2000, ht⟩ (1 : Fin 2) * 256 ≤ (i 1).val ∧ (i 1).val < win2_3.index ⟨(i 0).val / 2000, ht⟩ (1 : Fin 2) * 256 + 256; omega

/-- The result array after the launch, whatever the launch found in its three input arrays. -/
theorem result (c : Dev nD) :
    (dat2 V c).arrAt 3 cfg2.N = layer (V c main_v58) (V c main_v59) (V c main_arg7) :=
  (dat2 V c).arrAt_eq_of_cover 3 _ (fun t _ => flushed_eq V c t) (covered)

end

end Cert.KernelIdeal.Layer2

end
-- ==== Proof.FinalAdd.lean ====
/-
  The last launch. Row block t (rows 2000·t … 2000·t + 1999) of the result is, entry by entry, the block of the
  aggregated matrix plus the bias row plus the block of the residual matrix. The 25 row blocks tile the 50000 rows, so
  the whole result is the one function  (r, q) ↦ (agg (r, q) + b (0, q)) + res (r, q)  of the three arrays as the launch
  finds them, whatever those arrays are.
-/
import proofs.«100858_j82222853914666_2_alg».proof.Proof.Gen.KernelIdeal.Frame
import Idealize.ShloMosaic.Lib.Pipeline.Value
import Idealize.ShloMosaic.Lib.ValueIdx
import Idealize.ShloMosaic.Lib.ValueLayout

set_option maxRecDepth 16384

noncomputable section

namespace Cert.KernelIdeal.FinalAdd

open Cert.KernelIdeal Cert.KernelIdeal.Gen Idealize.ShloMosaic Idealize.ShloMosaic.TcCoe Idealize.ShloMosaic.ValueIdx Idealize.SL.Sem
open Idealize.ShloMosaic.Pipeline (Dat Cfg Window)

/-- A matrix plus a bias row repeated down the rows plus a second matrix, entry by entry. -/
def biasedSum (agg : S50000x256.Idx → EReal) (b : S1x256.Idx → EReal) (res : S50000x256.Idx → EReal) :
    S50000x256.Idx → EReal :=
  fun i => (agg i + b (ix2 (0 : Fin 1) (i 1))) + res i

theorem zeroOffsets : (![0, 0] : Fin 2 → Nat) = fun _ => 0 := funext fun a => by fin_cases a <;> rfl

/-- One block's stored value at row p, column q of the block: the three loaded blocks combined entry by entry, the
    bias row read at column q. -/
theorem stored_apply (x0 : Vec Ideal S2000x256 .f32) (x1 : Vec Ideal S1x256 .f32) (x2 : Vec Ideal S2000x256 .f32)
    (p : Fin 2000) (q : Fin 256) :
    k3_pay1 (F := Ideal) x0 x1 x2 (ix2 p q) = (x0 (ix2 p q) + x1 (ix2 (0 : Fin 1) q)) + x2 (ix2 p q) := by
  unfold k3_pay1
  simp only [shapeCast_self]
  show (x0 (ix2 p q) + broadcastTo S2000x256 x1 broadcasts_S1x256_S2000x256 (ix2 p q)) + x2 (ix2 p q) = _
  rw [broadcastTo_1b_ab_apply]

/-- The same, against whole arrays: if the first and third loaded blocks are the arrays read through a map e of block
    indices to array indices that keeps the column, and the second is the bias row, the stored block is the whole-array
    function read through e. -/
theorem stored_read (x0 : Vec Ideal S2000x256 .f32) (x1 : Vec Ideal S1x256 .f32) (x2 : Vec Ideal S2000x256 .f32)
    (agg res : S50000x256.Idx → EReal) (b : S1x256.Idx → EReal) (e : S2000x256.Idx → S50000x256.Idx)
    (h0 : ∀ y, x0 y = agg (e y)) (h1 : ∀ y, x1 y = b y) (h2 : ∀ y, x2 y = res (e y))
    (he : ∀ y, (e y 1).val = (y 1).val) (j : S2000x256.Idx) :
    k3_pay1 (F := Ideal) x0 x1 x2 j = biasedSum agg b res (e j) := by
  obtain ⟨p, q, rfl⟩ : ∃ (p : Fin 2000) (q : Fin 256), j = ix2 p q := ⟨j 0, j 1, eq_ix2 j⟩
  rw [stored_apply, h0, h1, h2]
  unfold biasedSum
  have hq : e (ix2 p q) 1 = q := Fin.ext (he (ix2 p q))
  rw [hq]

section
variable (V : (c : Dev nD) → (b : Ref sig .tc) → Buf (Elt Ideal) ((c : Thread nD τ).loc b))

/-- Where each window's block sits at grid point t: the two matrices and the result move together down the rows, one
    block per point; the bias row stays. -/
theorem blockPositions : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0
    ∧ win3_3.index t (0 : Fin 2) = t.val ∧ win3_3.index t (1 : Fin 2) = 0 :=
  (by decide +kernel : ∀ t : Fin grid3.N, _)

/-- What grid point t writes back is block t of the whole-array function. -/
theorem flushed_eq (c : Dev nD) (t : Fin cfg3.N) :
    (dat3 V c).flushed 3 t = ((cfg3.win 3).blk t).view.read (Elt Ideal)
      (biasedSum (V c main_v73) (V c main_v74) (V c main_v45)) := by
  show (cfg3.win 3).cut (grid3.coords t) ((dat3 V c).after 3 t) = _
  rw [after3_3]
  unfold out3_3
  rw [View.canon_unit_zero zeroOffsets]
  simp only [View.ld_unit_zero (S := S2000x256) zeroOffsets, View.ld_unit_zero (S := S1x256) zeroOffsets]
  obtain ⟨e0, e1, e2, e3, e4, e5, e6, e7⟩ := blockPositions t
  funext j
  refine stored_read (iblk3 V c 0 t) (iblk3 V c 1 t) (iblk3 V c 2 t) (V c main_v73) (V c main_v45) (V c main_v74)
    (((cfg3.win 3).blk t).view.emb) (fun y => ?_) (fun y => ?_) (fun y => ?_) (fun y => ?_) j
  · show V c main_v73 (((cfg3.win 0).blk t).view.emb y) = V c main_v73 (((cfg3.win 3).blk t).view.emb y)
    refine congrArg _ (funext fun a => Fin.ext ?_)
    match a with
    | ⟨0, _⟩ => show win3_0.index t (0 : Fin 2) * 2000 + 1 * (y 0).val = win3_3.index t (0 : Fin 2) * 2000 + 1 * (y 0).val; omega
    | ⟨1, _⟩ => show win3_0.index t (1 : Fin 2) * 256 + 1 * (y 1).val = win3_3.index t (1 : Fin 2) * 256 + 1 * (y 1).val; omega
  · show V c main_v74 (((cfg3.win 1).blk t).view.emb y) = V c main_v74 y
    refine congrArg _ (funext fun a => Fin.ext ?_)
    match a with
    | ⟨0, _⟩ => show win3_1.index t (0 : Fin 2) * 1 + 1 * (y 0).val = (y 0).val; omega
    | ⟨1, _⟩ => show win3_1.index t (1 : Fin 2) * 256 + 1 * (y 1).val = (y 1).val; omega
  · show V c main_v45 (((cfg3.win 2).blk t).view.emb y) = V c main_v45 (((cfg3.win 3).blk t).view.emb y)
    refine congrArg _ (funext fun a => Fin.ext ?_)
    match a with
    | ⟨0, _⟩ => show win3_2.index t (0 : Fin 2) * 2000 + 1 * (y 0).val = win3_3.index t (0 : Fin 2) * 2000 + 1 * (y 0).val; omega
    | ⟨1, _⟩ => show win3_2.index t (1 : Fin 2) * 256 + 1 * (y 1).val = win3_3.index t (1 : Fin 2) * 256 + 1 * (y 1).val; omega
  · show win3_3.index t (1 : Fin 2) * 256 + 1 * (y 1).val = (y 1).val; omega

/-- An index of the result is in point t's block iff each coordinate is in the block's range on its axis. -/
theorem mem_block (t : Fin cfg3.N) (i : S50000x256.Idx) :
    i ∈ ((cfg3.win 3).blk t).view.set ↔ ∀ a : Fin 2, win3_3.index t a * S2000x256.size a ≤ (i a).val
      ∧ (i a).val < win3_3.index t a * S2000x256.size a + S2000x256.size a := by
  show i ∈ ((View.whole main_v75).slice (win3_3.rect t)).set ↔ _
  rw [View.set_slice_whole, Rect.mem_set_unit]
  exact Iff.rfl

/-- Row r lies in the block of point r / 2000: the blocks cover the result. -/
theorem covered (i : S50000x256.Idx) :
    ∃ t : Fin cfg3.N, (cfg3.win 3).flush t = true ∧ i ∈ ((cfg3.win 3).blk t).view.set := by
  have hi0 : (i 0).val < 50000 := (i 0).isLt
  have hi1 : (i 1).val < 256 := (i 1).isLt
  have ht : (i 0).val / 2000 < cfg3.N := by show _ < grid3.N; rw [N_3]; omega
  obtain ⟨-, -, -, -, -, -, e6, e7⟩ := blockPositions ⟨(i 0).val / 2000, ht⟩
  have e6' : win3_3.index ⟨(i 0).val / 2000, ht⟩ (0 : Fin 2) = (i 0).val / 2000 := e6
  refine ⟨⟨(i 0).val / 2000, ht⟩, flush3_3 _, ?_⟩
  rw [mem_block]
  intro a
  match a with
  | ⟨0, _⟩ => show win3_3.index ⟨(i 0).val / 2000, ht⟩ (0 : Fin 2) * 2000 ≤ (i 0).val ∧ (i 0).val < win3_3.index ⟨(i 0).val / 2000, ht⟩ (0 : Fin 2) * 2000 + 2000; omega
  | ⟨1, _⟩ => show win3_3.index ⟨(i 0).val / 2000, ht⟩ (1 : Fin 2) * 256 ≤ (i 1).val ∧ (i 1).val < win3_3.index ⟨(i 0).val / 2000, ht⟩ (1 : Fin 2) * 256 + 256; omega

/-- The result array after the launch, whatever the launch found in its three input arrays. -/
theorem result (c : Dev nD) :
    (dat3 V c).arrAt 3 cfg3.N = biasedSum (V c main_v73) (V c main_v74) (V c main_v45) :=
  (dat3 V c).arrAt_eq_of_cover 3 _ (fun t _ => flushed_eq V c t) (covered)

end

end Cert.KernelIdeal.FinalAdd

end
-- ==== Proof.Chains.lean ====
/-
  The two chains of host operations that both programs share, each named once as a function of what goes into it.

  The graph has 800000 given edges and one self-loop per node, 850000 edge slots in all. `weights` lays the edge
  weights and the self-loops' ones side by side; `degree` sums each node's incoming weights; `invSqrtDegree` is
  1/√degree where the degree is positive and 0 elsewhere; `norm` is, per edge slot, the source's factor times the
  weight times the destination's factor. `aggregate` gathers a node matrix's rows at the edge sources, scales each by
  the slot's norm, and sums the rows into the destinations. The reference's numbered stages are these functions of its
  own edge-weight and node-matrix stages: the equalities below hold by unfolding the stages' names, with nothing
  computed, and the certificate never opens a gather or a scatter.
-/
import proofs.«100858_j82222853914666_2_alg».proof.Proof.Gen.ReferenceIdeal.Read

set_option maxRecDepth 16384

noncomputable section

namespace Cert.Gcn

open Cert.ReferenceIdeal Cert.ReferenceIdeal.Gen Cert.ReferenceIdeal.Read Idealize.ShloMosaic

variable {F : FTy → Type} [FloatOps F]

/-- The 800000 edge weights followed by the 50000 self-loop weights, all ones. -/
def weights (ew : (⟨S800000x1, .f32⟩ : BufTy).Contents (Elt F)) : (⟨S850000, .f32⟩ : BufTy).Contents (Elt F) :=
  concatenate S850000 0 [⟨S800000, shapeCast _ ew shapeCasts_S800000x1_S800000⟩, ⟨S50000, val_main_v13 (F := F)⟩]
    concatenates_S800000_S50000_S850000_d0

/-- Each node's degree: the sum of the weights of the edge slots that end at it. -/
def degree (x0 : (⟨S2x800000, .i32⟩ : BufTy).Contents (Elt F)) (ew : (⟨S800000x1, .f32⟩ : BufTy).Contents (Elt F)) :
    (⟨S50000, .f32⟩ : BufTy).Contents (Elt F) :=
  Host.scatterAdd scatter_S50000_S850000x1_S850000_n_0_0_1 (val_main_v15 (F := F)) (val_main_v16 (F := F) x0) (weights ew)

/-- 1/√degree where the degree is positive, 0 elsewhere. -/
def invSqrtDegree (x0 : (⟨S2x800000, .i32⟩ : BufTy).Contents (Elt F)) (ew : (⟨S800000x1, .f32⟩ : BufTy).Contents (Elt F)) :
    (⟨S50000, .f32⟩ : BufTy).Contents (Elt F) :=
  select (cmpf .ogt (degree x0 ew) (val_main_v18 (F := F)))
    (Host.rsqrt (select (cmpf .ogt (degree x0 ew) (val_main_v20 (F := F))) (degree x0 ew) (val_main_call1_v1 (F := F))))
    (val_main_call2_v1 (F := F))

/-- Per edge slot: the source's factor times the weight times the destination's factor. -/
def norm (x0 : (⟨S2x800000, .i32⟩ : BufTy).Contents (Elt F)) (ew : (⟨S800000x1, .f32⟩ : BufTy).Contents (Elt F)) :
    (⟨S850000, .f32⟩ : BufTy).Contents (Elt F) :=
  mulf (mulf (Host.gather gather_S50000_S850000x1_S850000_n_0_n_n_0_1_1 (invSqrtDegree x0 ew) (val_main_v30 (F := F) x0)) (weights ew))
    (Host.gather gather_S50000_S850000x1_S850000_n_0_n_n_0_1_1 (invSqrtDegree x0 ew) (val_main_v38 (F := F) x0))

/-- The reference's norm stage is `norm` of its edge-weight stage. -/
theorem norm_ref (x0 : (⟨S2x800000, .i32⟩ : BufTy).Contents (Elt F)) (x1 : (⟨S800000x8, .f32⟩ : BufTy).Contents (Elt F)) (x3 : (⟨S8x1, .f32⟩ : BufTy).Contents (Elt F)) (x4 : (⟨S1, .f32⟩ : BufTy).Contents (Elt F)) :
    val_main_v40 (F := F) x0 x1 x3 x4 = norm x0 (val_main_v4 (F := F) x1 x3 x4) := rfl

/-- Rows of a node matrix gathered at the edge sources, scaled by the slots' norms, summed into the destinations. -/
def aggregate (x0 : (⟨S2x800000, .i32⟩ : BufTy).Contents (Elt F)) (nrm : (⟨S850000, .f32⟩ : BufTy).Contents (Elt F))
    (h : (⟨S50000x256, .f32⟩ : BufTy).Contents (Elt F)) : (⟨S50000x256, .f32⟩ : BufTy).Contents (Elt F) :=
  Host.scatterAdd scatter_S50000x256_S850000x1_S850000x256_1_0_0_1 (val_main_v52 (F := F)) (val_main_v53 (F := F) x0)
    (mulf (broadcastInDim S850000x256 ![0, 1] bcast_S850000x1_S850000x256_0_1 (broadcastInDim S850000x1 ![0] bcast_S850000_S850000x1_0 nrm))
      (Host.gather gather_S50000x256_S850000x1_S850000x256_1_0_n_n_0_1_1256 h (val_main_v48 (F := F) x0)))

/-- The reference's first aggregation is `aggregate` of its norm and its first node matrix. -/
theorem agg1_ref (x0 : (⟨S2x800000, .i32⟩ : BufTy).Contents (Elt F)) (x1 : (⟨S800000x8, .f32⟩ : BufTy).Contents (Elt F)) (x3 : (⟨S8x1, .f32⟩ : BufTy).Contents (Elt F)) (x4 : (⟨S1, .f32⟩ : BufTy).Contents (Elt F))
    (x2 : (⟨S50000x128, .f32⟩ : BufTy).Contents (Elt F)) (x5 : (⟨S128x256, .f32⟩ : BufTy).Contents (Elt F)) :
    val_main_v54 (F := F) x0 x1 x2 x3 x4 x5
      = aggregate x0 (val_main_v40 (F := F) x0 x1 x3 x4) (val_main_v41 (F := F) x2 x5) := rfl

/-- The reference's second aggregation is `aggregate` of the same norm and its second node matrix. -/
theorem agg2_ref (x0 : (⟨S2x800000, .i32⟩ : BufTy).Contents (Elt F)) (x1 : (⟨S800000x8, .f32⟩ : BufTy).Contents (Elt F)) (x3 : (⟨S8x1, .f32⟩ : BufTy).Contents (Elt F)) (x4 : (⟨S1, .f32⟩ : BufTy).Contents (Elt F))
    (x2 : (⟨S50000x128, .f32⟩ : BufTy).Contents (Elt F)) (x5 : (⟨S128x256, .f32⟩ : BufTy).Contents (Elt F))
    (x6 : (⟨S256, .f32⟩ : BufTy).Contents (Elt F)) (x7 : (⟨S256x256, .f32⟩ : BufTy).Contents (Elt F)) :
    val_main_v72 (F := F) x0 x1 x2 x3 x4 x5 x6 x7
      = aggregate x0 (val_main_v40 (F := F) x0 x1 x3 x4) (val_main_v59 (F := F) x0 x1 x2 x3 x4 x5 x6 x7) := rfl

end Cert.Gcn

end
-- ==== Proof.LibSideBySide.lean ====
/-
  Two arrays laid side by side, and a vector seen as a one-row matrix, read by coordinates.

  Concatenating two arrays along an axis keeps every other coordinate; along the joined axis a position below the first
  piece's extent reads the first piece at that position, and a position at or past it reads the second piece at the
  position less that extent. Stated here for two matrices with the same number of rows joined along the columns, and for
  two vectors, for any extents. The last lemma reads a vector reshaped to a matrix of one row: entry (0, q) is entry q,
  both having row-major position q.
-/
import Idealize.ShloMosaic.Lib.Pipeline.Value
import Idealize.ShloMosaic.Lib.ValueIdx

namespace Cert.LibSideBySide

open Idealize.ShloMosaic Idealize.ShloMosaic.ValueIdx

variable {α : Type}

/-- Two matrices joined along the columns, at a column inside the first: the first matrix at that column. -/
theorem cols_left {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (k : Fin a) (q : Fin b₁) (col : Fin n)
    (hc : col.val = q.val) :
    concatenate ⟨2, ![a, n]⟩ 1 [⟨⟨2, ![a, b₁]⟩, x₁⟩, ⟨⟨2, ![a, b₂]⟩, x₂⟩] h (ix2 k col) = x₁ (ix2 k q) :=
  concatenate_pair_apply_left (1 : Fin 2) x₁ x₂ h (ix2 k col) rfl (ix2 k q) fun b => by
    match b with
    | ⟨0, _⟩ => rfl
    | ⟨1, _⟩ => exact hc.symm

/-- Two matrices joined along the columns, at a column past the first: the second matrix at the column less the first
    matrix's width. -/
theorem cols_right {a b₁ b₂ n : ℕ} (x₁ : (⟨2, ![a, b₁]⟩ : Shape).Idx → α) (x₂ : (⟨2, ![a, b₂]⟩ : Shape).Idx → α)
    (h : Shape.Concatenates [⟨2, ![a, b₁]⟩, ⟨2, ![a, b₂]⟩] ⟨2, ![a, n]⟩ 1) (k : Fin a) (q : Fin b₂) (col : Fin n)
    (hc : col.val = b₁ + q.val) :
    concatenate ⟨2, ![a, n]⟩ 1 [⟨⟨2, ![a, b₁]⟩, x₁⟩, ⟨⟨2, ![a, b₂]⟩, x₂⟩] h (ix2 k col) = x₂ (ix2 k q) :=
  concatenate_pair_apply_right (1 : Fin 2) x₁ x₂ h (ix2 k col) rfl rfl (ix2 k q)
    (fun b hb => by
      match b, hb with
      | ⟨0, _⟩, _ => rfl
      | ⟨1, _⟩, hb => exact absurd rfl hb)
    (by show q.val + b₁ = col.val; omega)

/-- Two vectors joined, at a position inside the first: the first vector at that position. -/
theorem vec_left {b₁ b₂ n : ℕ} (x₁ : (⟨1, ![b₁]⟩ : Shape).Idx → α) (x₂ : (⟨1, ![b₂]⟩ : Shape).Idx → α)
    (h : Shape.Concatenates [⟨1, ![b₁]⟩, ⟨1, ![b₂]⟩] ⟨1, ![n]⟩ 0) (q : Fin b₁) (pos : Fin n) (hc : pos.val = q.val) :
    concatenate ⟨1, ![n]⟩ 0 [⟨⟨1, ![b₁]⟩, x₁⟩, ⟨⟨1, ![b₂]⟩, x₂⟩] h (ix1 pos) = x₁ (ix1 q) :=
  concatenate_pair_apply_left (0 : Fin 1) x₁ x₂ h (ix1 pos) rfl (ix1 q) fun b => by
    match b with
    | ⟨0, _⟩ => exact hc.symm

/-- Two vectors joined, at a position past the first: the second vector at the position less the first's length. -/
theorem vec_right {b₁ b₂ n : ℕ} (x₁ : (⟨1, ![b₁]⟩ : Shape).Idx → α) (x₂ : (⟨1, ![b₂]⟩ : Shape).Idx → α)
    (h : Shape.Concatenates [⟨1, ![b₁]⟩, ⟨1, ![b₂]⟩] ⟨1, ![n]⟩ 0) (q : Fin b₂) (pos : Fin n) (hc : pos.val = b₁ + q.val) :
    concatenate ⟨1, ![n]⟩ 0 [⟨⟨1, ![b₁]⟩, x₁⟩, ⟨⟨1, ![b₂]⟩, x₂⟩] h (ix1 pos) = x₂ (ix1 q) :=
  concatenate_pair_apply_right (0 : Fin 1) x₁ x₂ h (ix1 pos) rfl rfl (ix1 q)
    (fun b hb => by
      match b, hb with
      | ⟨0, _⟩, hb => exact absurd rfl hb)
    (by show q.val + b₁ = pos.val; omega)

/-- A vector reshaped to a matrix of one row reads, at (0, q), the vector at q. -/
theorem row_apply {n : ℕ} (x : (⟨1, ![n]⟩ : Shape).Idx → α) (h : (⟨1, ![n]⟩ : Shape).ShapeCasts ⟨2, ![1, n]⟩) (q : Fin n) :
    shapeCast ⟨2, ![1, n]⟩ x h (ix2 (0 : Fin 1) q) = x (ix1 q) :=
  shapeCast_apply x h _ _ (by
    rw [Shape.rowMajor_val_one, Shape.rowMajor_val_two]
    show q.val = (0 : Fin 1).val * n + q.val
    simp)

end Cert.LibSideBySide
-- ==== Proof.Joins.lean ====
/-
  Where the two programs meet, array by array.

  Each launch's result is one whole-array function of the arrays it finds (the four launch modules). This module shows
  those functions, applied to the host values the program feeds them, are the reference's own stages:
  * the edge weights: the lane sum of feature times transposed weight column, plus the reshaped bias, through softplus,
    is the reference's product with the weight column plus the broadcast bias through its softplus;
  * the fused product x · [W₁ | Wₛ] + [0 | bₛ]: its first 256 columns are x · W₁ (the zero bias adds nothing), its last
    256 columns are x · Wₛ + bₛ;
  * tanh (aggregate + bias row) · W₂ is the reference's product of tanh (aggregate + broadcast bias) with W₂;
  * (aggregate + bias row) + residual is the reference's last two additions.
  The two statements about an aggregate hold for ANY aggregated matrix: the aggregation itself is never opened.
-/
import proofs.«100858_j82222853914666_2_alg».proof.Proof.EdgeWeight
import proofs.«100858_j82222853914666_2_alg».proof.Proof.DenseTransform
import proofs.«100858_j82222853914666_2_alg».proof.Proof.Layer2
import proofs.«100858_j82222853914666_2_alg».proof.Proof.FinalAdd
import proofs.«100858_j82222853914666_2_alg».proof.Proof.Chains
import proofs.«100858_j82222853914666_2_alg».proof.Proof.LibPlainDot
import proofs.«100858_j82222853914666_2_alg».proof.Proof.LibSideBySide
import proofs.«100858_j82222853914666_2_alg».proof.Proof.LibKeepdims
import proofs.«100858_j82222853914666_2_alg».proof.Proof.Softplus
import Idealize.ShloMosaic.Lib.ValueLayout

set_option maxRecDepth 16384

noncomputable section

namespace Cert.Bridge

open Cert.KernelIdeal Cert.KernelIdeal.Gen Cert.ReferenceIdeal.Read Idealize.ShloMosaic Idealize.ShloMosaic.ValueIdx
open Cert.LibSideBySide (row_apply cols_left cols_right vec_left vec_right)

/-! ## The reference's bias broadcasts: a 256-vector repeated down 50000 rows reads the vector at the column -/

theorem ref_bias6 (x : FVec Ideal S256 .f32) (r : Fin 50000) (q : Fin 256) :
    val_main_v56 (F := Ideal) x (ix2 r q) = x (ix1 q) := by
  rw [val_main_v56_apply, val_main_v55_apply]
  exact congrArg x (funext fun a => by match a with | ⟨0, _⟩ => rfl)

theorem ref_bias8 (x : FVec Ideal S256 .f32) (r : Fin 50000) (q : Fin 256) :
    val_main_v74 (F := Ideal) x (ix2 r q) = x (ix1 q) := by
  rw [val_main_v74_apply, val_main_v73_apply]
  exact congrArg x (funext fun a => by match a with | ⟨0, _⟩ => rfl)

theorem ref_bias10 (x : FVec Ideal S256 .f32) (r : Fin 50000) (q : Fin 256) :
    val_main_v78 (F := Ideal) x (ix2 r q) = x (ix1 q) := by
  rw [val_main_v78_apply, val_main_v77_apply]
  exact congrArg x (funext fun a => by match a with | ⟨0, _⟩ => rfl)

/-! ## The last launch against the reference's last two additions -/

theorem final_join (agg res : FVec Ideal S50000x256 .f32) (x8 : FVec Ideal S256 .f32) :
    FinalAdd.biasedSum agg (shapeCast S1x256 x8 shapeCasts_S256_S1x256) res
      = addf (F := Ideal) (addf (F := Ideal) agg (val_main_v74 (F := Ideal) x8)) res := by
  funext i
  obtain ⟨r, q, rfl⟩ : ∃ (r : Fin 50000) (q : Fin 256), i = ix2 r q := ⟨i 0, i 1, eq_ix2 i⟩
  show (agg (ix2 r q) + shapeCast S1x256 x8 shapeCasts_S256_S1x256 (ix2 (0 : Fin 1) q)) + res (ix2 r q)
      = (agg (ix2 r q) + val_main_v74 (F := Ideal) x8 (ix2 r q)) + res (ix2 r q)
  rw [ref_bias8, row_apply]

/-! ## The third launch against the reference's tanh and second product -/

theorem dims_ref_256 :
    Cert.ReferenceIdeal.dot_S50000x256_S256x256_S50000x256_1_0_0_1_n_n = DotDims.plain 50000 256 256 := rfl

theorem layer_join (agg : FVec Ideal S50000x256 .f32) (x6 : FVec Ideal S256 .f32) (x7 : FVec Ideal S256x256 .f32) :
    Layer2.layer agg (shapeCast S1x256 x6 shapeCasts_S256_S1x256) x7
      = Host.dotGeneral (F := Ideal) Cert.ReferenceIdeal.dot_S50000x256_S256x256_S50000x256_1_0_0_1_n_n none
          (Host.tanh (F := Ideal) (addf (F := Ideal) agg (val_main_v56 (F := Ideal) x6))) x7 := by
  funext i
  obtain ⟨r, q, rfl⟩ : ∃ (r : Fin 50000) (q : Fin 256), i = ix2 r q := ⟨i 0, i 1, eq_ix2 i⟩
  simp only [Host.dotGeneral]
  rw [dims_ref_256, Cert.LibPlainDot.dotGeneral_apply]
  unfold Layer2.layer
  refine Finset.sum_congr rfl fun k _ => ?_
  show Ideal.tanh (agg (ix2 r k) + shapeCast S1x256 x6 shapeCasts_S256_S1x256 (ix2 (0 : Fin 1) k)) * x7 (ix2 k q)
      = Ideal.tanh (agg (ix2 r k) + val_main_v56 (F := Ideal) x6 (ix2 r k)) * x7 (ix2 k q)
  rw [ref_bias6, row_apply]

/-! ## The second launch's two halves against the reference's first product and its residual -/

theorem zeros256_apply (q : Fin 256) :
    broadcastInDim S256 ![] bcast_S_S256 (constant (F := Ideal) S_ .f32 0x00000000#32) (ix1 q) = 0 :=
  (broadcastInDim_apply _ bcast_S_S256 (constant (F := Ideal) S_ .f32 0x00000000#32) (ix1 q) (fun a => a.elim0)
    (fun a => a.elim0)).trans Ideal.ofBits_zero_f32

/-- The fused weight matrix and bias row the program builds on the host. -/
def fusedWeights (x5 x9 : FVec Ideal S128x256 .f32) : FVec Ideal S128x512 .f32 :=
  concatenate S128x512 1 [⟨S128x256, x5⟩, ⟨S128x256, x9⟩] concatenates_S128x256_S128x256_S128x512_d1

def fusedBias (x10 : FVec Ideal S256 .f32) : FVec Ideal S1x512 .f32 :=
  shapeCast S1x512 (concatenate S512 0
    [⟨S256, broadcastInDim S256 ![] bcast_S_S256 (constant (F := Ideal) S_ .f32 0x00000000#32)⟩, ⟨S256, x10⟩]
    concatenates_S256_S256_S512_d0) shapeCasts_S512_S1x512

theorem h1_join (x2 : FVec Ideal S50000x128 .f32) (x5 x9 : FVec Ideal S128x256 .f32) (x10 : FVec Ideal S256 .f32) :
    extractStridedSlice S50000x256 ![0, 0] (DenseTransform.affine x2 (fusedWeights x5 x9) (fusedBias x10))
      slices_S50000x512_S50000x256_0_0 = val_main_v41 (F := Ideal) x2 x5 := by
  funext i
  obtain ⟨r, q, rfl⟩ : ∃ (r : Fin 50000) (q : Fin 256), i = ix2 r q := ⟨i 0, i 1, eq_ix2 i⟩
  have hq : q.val < 512 := by have := q.isLt; omega
  refine (extractStridedSlice_apply _ _ slices_S50000x512_S50000x256_0_0 (ix2 r q) (ix2 r (⟨q.val, hq⟩ : Fin 512))
    (fun a => by
      match a with
      | ⟨0, _⟩ => show r.val = 0 + r.val; omega
      | ⟨1, _⟩ => show q.val = 0 + q.val; omega)).trans ?_
  rw [val_main_v41_apply]
  show (∑ k : Fin 128, x2 (ix2 r k) * fusedWeights x5 x9 (ix2 k (⟨q.val, hq⟩ : Fin 512)))
      + fusedBias x10 (ix2 (0 : Fin 1) (⟨q.val, hq⟩ : Fin 512)) = _
  have hb : fusedBias x10 (ix2 (0 : Fin 1) (⟨q.val, hq⟩ : Fin 512)) = 0 := by
    unfold fusedBias
    refine (row_apply _ shapeCasts_S512_S1x512 (⟨q.val, hq⟩ : Fin 512)).trans ?_
    refine (vec_left _ x10 concatenates_S256_S256_S512_d0 q (⟨q.val, hq⟩ : Fin 512) rfl).trans ?_
    exact zeros256_apply q
  rw [hb, add_zero]
  refine Finset.sum_congr rfl fun k _ => ?_
  have hw : fusedWeights x5 x9 (ix2 k (⟨q.val, hq⟩ : Fin 512)) = x5 (ix2 k q) :=
    cols_left x5 x9 concatenates_S128x256_S128x256_S128x512_d1 k q (⟨q.val, hq⟩ : Fin 512) rfl
  rw [hw]
  refine congrArg₂ (· * ·) (congrArg x2 ?_) (congrArg x5 ?_)
  · funext a; match a with | ⟨0, _⟩ => rfl | ⟨1, _⟩ => rfl
  · funext a; match a with | ⟨0, _⟩ => rfl | ⟨1, _⟩ => rfl

theorem res_join (x2 : FVec Ideal S50000x128 .f32) (x5 x9 : FVec Ideal S128x256 .f32) (x10 : FVec Ideal S256 .f32) :
    extractStridedSlice S50000x256 ![0, 256] (DenseTransform.affine x2 (fusedWeights x5 x9) (fusedBias x10))
      slices_S50000x512_S50000x256_0_256 = val_main_v79 (F := Ideal) x2 x9 x10 := by
  funext i
  obtain ⟨r, q, rfl⟩ : ∃ (r : Fin 50000) (q : Fin 256), i = ix2 r q := ⟨i 0, i 1, eq_ix2 i⟩
  have hq : 256 + q.val < 512 := by have := q.isLt; omega
  refine (extractStridedSlice_apply _ _ slices_S50000x512_S50000x256_0_256 (ix2 r q) (ix2 r (⟨256 + q.val, hq⟩ : Fin 512))
    (fun a => by
      match a with
      | ⟨0, _⟩ => show r.val = 0 + r.val; omega
      | ⟨1, _⟩ => show 256 + q.val = 256 + q.val; rfl)).trans ?_
  rw [val_main_v79_apply, val_main_v76_apply, ref_bias10]
  show (∑ k : Fin 128, x2 (ix2 r k) * fusedWeights x5 x9 (ix2 k (⟨256 + q.val, hq⟩ : Fin 512)))
      + fusedBias x10 (ix2 (0 : Fin 1) (⟨256 + q.val, hq⟩ : Fin 512)) = _
  have hb : fusedBias x10 (ix2 (0 : Fin 1) (⟨256 + q.val, hq⟩ : Fin 512)) = x10 (ix1 q) := by
    unfold fusedBias
    refine (row_apply _ shapeCasts_S512_S1x512 (⟨256 + q.val, hq⟩ : Fin 512)).trans ?_
    exact vec_right _ x10 concatenates_S256_S256_S512_d0 q (⟨256 + q.val, hq⟩ : Fin 512) rfl
  rw [hb]
  refine congrArg (· + x10 (ix1 q)) (Finset.sum_congr rfl fun k _ => ?_)
  have hw : fusedWeights x5 x9 (ix2 k (⟨256 + q.val, hq⟩ : Fin 512)) = x9 (ix2 k q) :=
    cols_right x5 x9 concatenates_S128x256_S128x256_S128x512_d1 k q (⟨256 + q.val, hq⟩ : Fin 512) rfl
  rw [hw]
  refine congrArg₂ (· * ·) (congrArg x2 ?_) (congrArg x9 ?_)
  · funext a; match a with | ⟨0, _⟩ => rfl | ⟨1, _⟩ => rfl
  · funext a; match a with | ⟨0, _⟩ => rfl | ⟨1, _⟩ => rfl

/-! ## The first launch against the reference's edge-weight stage -/

theorem ref_zero0 (i : S800000x1.Idx) : val_main_call0_v0 (F := Ideal) i = Ideal.ofBits .f32 0x00000000#32 := by
  rw [val_main_call0_v0_apply]; rfl
theorem ref_zero2 (i : S800000x1.Idx) : val_main_call0_v2 (F := Ideal) i = Ideal.ofBits .f32 0x00000000#32 := by
  rw [val_main_call0_v2_apply]; rfl
theorem ref_zero5 (i : S800000x1.Idx) : val_main_call0_v5 (F := Ideal) i = Ideal.ofBits .f32 0x00000000#32 := by
  rw [val_main_call0_v5_apply]; rfl

/-- The reference's logit of edge r: its features against the weight column, plus the bias. -/
theorem ref_logit (x1 : FVec Ideal S800000x8 .f32) (x3 : FVec Ideal S8x1 .f32) (x4 : FVec Ideal S1 .f32) (r : Fin 800000) :
    val_main_v3 (F := Ideal) x1 x3 x4 (ix2 r (0 : Fin 1))
      = (∑ k : Fin 8, x1 (ix2 r k) * x3 (ix2 k (0 : Fin 1))) + x4 (ix1 (0 : Fin 1)) := by
  rw [val_main_v3_apply, val_main_v0_apply, val_main_v2_apply, val_main_v1_apply]
  refine congrArg₂ (· + ·) (Finset.sum_congr rfl fun k _ => congrArg₂ (· * ·) (congrArg x1 ?_) (congrArg x3 ?_)) (congrArg x4 ?_)
  · funext a; match a with | ⟨0, _⟩ => rfl | ⟨1, _⟩ => rfl
  · funext a; match a with | ⟨0, _⟩ => rfl | ⟨1, _⟩ => rfl
  · funext a; match a with | ⟨0, _⟩ => rfl

theorem edge_join (x1 : FVec Ideal S800000x8 .f32) (x3 : FVec Ideal S8x1 .f32) (x4 : FVec Ideal S1 .f32) :
    EdgeWeight.edgeWeight x1 (transpose S1x8 [1, 0] x3 transposes_S8x1_S1x8_1_0) (shapeCast S1x1 x4 shapeCasts_S1_S1x1)
      = val_main_v4 (F := Ideal) x1 x3 x4 := by
  funext i
  obtain ⟨r, u, rfl⟩ : ∃ (r : Fin 800000) (u : Fin 1), i = ix2 r u := ⟨i 0, i 1, eq_ix2 i⟩
  have hu : u = 0 := Subsingleton.elim _ _
  subst hu
  symm
  show Scalar.select
      (Ideal.cmp .une (val_main_v3 (F := Ideal) x1 x3 x4 (ix2 r 0) - val_main_call0_v2 (F := Ideal) (ix2 r 0))
        (val_main_v3 (F := Ideal) x1 x3 x4 (ix2 r 0) - val_main_call0_v2 (F := Ideal) (ix2 r 0)))
      (val_main_v3 (F := Ideal) x1 x3 x4 (ix2 r 0) + val_main_call0_v5 (F := Ideal) (ix2 r 0))
      (max (val_main_v3 (F := Ideal) x1 x3 x4 (ix2 r 0)) (val_main_call0_v0 (F := Ideal) (ix2 r 0))
        + Ideal.log1p (Ideal.exp (-(max (val_main_v3 (F := Ideal) x1 x3 x4 (ix2 r 0) - val_main_call0_v2 (F := Ideal) (ix2 r 0))
            (-(val_main_v3 (F := Ideal) x1 x3 x4 (ix2 r 0) - val_main_call0_v2 (F := Ideal) (ix2 r 0))))))) = _
  rw [ref_zero0, ref_zero2, ref_zero5, Cert.Gcn.softplus_of_neg_form _ _ Ideal.ofBits_zero_f32, ref_logit]
  unfold EdgeWeight.edgeWeight
  refine congrArg Cert.Gcn.softplus (congrArg₂ (· + ·) (Finset.sum_congr rfl fun k _ => congrArg (x1 (ix2 r k) * ·) ?_) ?_)
  · exact (transpose_ix2_apply x3 transposes_S8x1_S1x8_1_0 (0 : Fin 1) k).symm
  · exact (row_apply x4 shapeCasts_S1_S1x1 (0 : Fin 1)).symm

/-! ## The reference's later stages as the launches' functions of its earlier stages -/

/-- The reference's second node matrix is the third launch's function of its first aggregation. -/
theorem h2_ref (x0 : IVec S2x800000 32) (x1 : FVec Ideal S800000x8 .f32) (x2 : FVec Ideal S50000x128 .f32) (x3 : FVec Ideal S8x1 .f32) (x4 : FVec Ideal S1 .f32) (x5 : FVec Ideal S128x256 .f32) (x6 : FVec Ideal S256 .f32) (x7 : FVec Ideal S256x256 .f32) :
    val_main_v59 (F := Ideal) x0 x1 x2 x3 x4 x5 x6 x7
      = Layer2.layer (val_main_v54 (F := Ideal) x0 x1 x2 x3 x4 x5) (shapeCast S1x256 x6 shapeCasts_S256_S1x256) x7 :=
  (layer_join (val_main_v54 (F := Ideal) x0 x1 x2 x3 x4 x5) x6 x7).symm

/-- The reference's result is the last launch's function of its second aggregation and its residual. -/
theorem out_ref (x0 : IVec S2x800000 32) (x1 : FVec Ideal S800000x8 .f32) (x2 : FVec Ideal S50000x128 .f32) (x3 : FVec Ideal S8x1 .f32) (x4 : FVec Ideal S1 .f32) (x5 : FVec Ideal S128x256 .f32) (x6 : FVec Ideal S256 .f32) (x7 : FVec Ideal S256x256 .f32) (x8 : FVec Ideal S256 .f32) (x9 : FVec Ideal S128x256 .f32) (x10 : FVec Ideal S256 .f32) :
    val_main_v80 (F := Ideal) x0 x1 x2 x3 x4 x5 x6 x7 x8 x9 x10
      = FinalAdd.biasedSum (val_main_v72 (F := Ideal) x0 x1 x2 x3 x4 x5 x6 x7) (shapeCast S1x256 x8 shapeCasts_S256_S1x256)
          (val_main_v79 (F := Ideal) x2 x9 x10) :=
  (final_join (val_main_v72 (F := Ideal) x0 x1 x2 x3 x4 x5 x6 x7) (val_main_v79 (F := Ideal) x2 x9 x10) x8).symm

end Cert.Bridge

end
-- ==== Proof.Walk1.lean ====
/-
  What the buffers hold at the boundaries of the run, up to the second launch's result.

  The run's boundary contents are a fold through the program: a host stretch applies its operations, a launch replaces
  its arrays by what its write-backs leave. Read at one buffer, a stretch gives that buffer's operation applied to the
  contents of its operands at the stretch's entry, and a buffer no operation writes passes through; a launch leaves
  every buffer but its own arrays alone. So: the arguments are as launched wherever they are read; the first launch's
  result is the edge weights, which are the reference's edge-weight stage; the stretch after it computes the edge
  sources and destinations with their self-loops, the norm, the fused weight matrix and the fused bias row; and the
  second launch's result is the fused product.
-/
import proofs.«100858_j82222853914666_2_alg».proof.Proof.Gen.KernelIdeal.Frame
import proofs.«100858_j82222853914666_2_alg».proof.Proof.Joins
import Idealize.ShloMosaic.Lib.StableHlo.Run

set_option maxRecDepth 16384

noncomputable section

namespace Cert.KernelIdeal.Walk

open Cert.KernelIdeal Cert.KernelIdeal.Gen Cert.ReferenceIdeal.Read Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## The arguments, wherever they are read -/

theorem at1_arg1 : W1 m ρ c (Proc.devRef .tc main_arg1) = m ((c : Thread nD τ).loc main_arg1) := by
  show StableHlo.after hostOps0 (W0 m ρ c) (Proc.devRef .tc main_arg1) = _
  after_results

theorem at2_arg0 : W2 m ρ c (Proc.devRef .tc main_arg0) = m ((c : Thread nD τ).loc main_arg0) := by
  rw [W2_of_ne m ρ c main_arg0 (by decide)]
  show StableHlo.after hostOps0 (W0 m ρ c) (Proc.devRef .tc main_arg0) = _
  after_results

theorem at2_arg2 : W2 m ρ c (Proc.devRef .tc main_arg2) = m ((c : Thread nD τ).loc main_arg2) := by
  rw [W2_of_ne m ρ c main_arg2 (by decide)]
  show StableHlo.after hostOps0 (W0 m ρ c) (Proc.devRef .tc main_arg2) = _
  after_results

theorem at2_arg5 : W2 m ρ c (Proc.devRef .tc main_arg5) = m ((c : Thread nD τ).loc main_arg5) := by
  rw [W2_of_ne m ρ c main_arg5 (by decide)]
  show StableHlo.after hostOps0 (W0 m ρ c) (Proc.devRef .tc main_arg5) = _
  after_results

theorem at2_arg6 : W2 m ρ c (Proc.devRef .tc main_arg6) = m ((c : Thread nD τ).loc main_arg6) := by
  rw [W2_of_ne m ρ c main_arg6 (by decide)]
  show StableHlo.after hostOps0 (W0 m ρ c) (Proc.devRef .tc main_arg6) = _
  after_results

theorem at2_arg7 : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results

theorem at2_arg8 : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results

theorem at2_arg9 : W2 m ρ c (Proc.devRef .tc main_arg9) = m ((c : Thread nD τ).loc main_arg9) := by
  rw [W2_of_ne m ρ c main_arg9 (by decide)]
  show StableHlo.after hostOps0 (W0 m ρ c) (Proc.devRef .tc main_arg9) = _
  after_results

theorem at2_arg10 : W2 m ρ c (Proc.devRef .tc main_arg10) = m ((c : Thread nD τ).loc main_arg10) := by
  rw [W2_of_ne m ρ c main_arg10 (by decide)]
  show StableHlo.after hostOps0 (W0 m ρ c) (Proc.devRef .tc main_arg10) = _
  after_results

theorem at7_arg2 : W7 m ρ c (Proc.devRef .tc main_arg2) = m ((c : Thread nD τ).loc main_arg2) := by
  have h : W7 m ρ c (Proc.devRef .tc main_arg2) = W2 m ρ c (Proc.devRef .tc main_arg2) := by
    show StableHlo.after hostOps1_4 (StableHlo.after hostOps1_3 (StableHlo.after hostOps1_2 (StableHlo.after hostOps1_1
    (StableHlo.after hostOps1 (W2 m ρ c))))) (Proc.devRef .tc main_arg2) = _
    after_results
  rw [h, at2_arg2]

theorem at7_arg6 : W7 m ρ c (Proc.devRef .tc main_arg6) = m ((c : Thread nD τ).loc main_arg6) := by
  have h : W7 m ρ c (Proc.devRef .tc main_arg6) = W2 m ρ c (Proc.devRef .tc main_arg6) := by
    show StableHlo.after hostOps1_4 (StableHlo.after hostOps1_3 (StableHlo.after hostOps1_2 (StableHlo.after hostOps1_1
    (StableHlo.after hostOps1 (W2 m ρ c))))) (Proc.devRef .tc main_arg6) = _
    after_results
  rw [h, at2_arg6]

theorem at7_arg7 : W7 m ρ c (Proc.devRef .tc main_arg7) = m ((c : Thread nD τ).loc main_arg7) := by
  have h : W7 m ρ c (Proc.devRef .tc main_arg7) = W2 m ρ c (Proc.devRef .tc main_arg7) := by
    show StableHlo.after hostOps1_4 (StableHlo.after hostOps1_3 (StableHlo.after hostOps1_2 (StableHlo.after hostOps1_1
    (StableHlo.after hostOps1 (W2 m ρ c))))) (Proc.devRef .tc main_arg7) = _
    after_results
  rw [h, at2_arg7]

theorem at7_arg8 : W7 m ρ c (Proc.devRef .tc main_arg8) = m ((c : Thread nD τ).loc main_arg8) := by
  have h : W7 m ρ c (Proc.devRef .tc main_arg8) = W2 m ρ c (Proc.devRef .tc main_arg8) := by
    show StableHlo.after hostOps1_4 (StableHlo.after hostOps1_3 (StableHlo.after hostOps1_2 (StableHlo.after hostOps1_1
    (StableHlo.after hostOps1 (W2 m ρ c))))) (Proc.devRef .tc main_arg8) = _
    after_results
  rw [h, at2_arg8]

theorem at8_arg6 : W8 m ρ c (Proc.devRef .tc main_arg6) = m ((c : Thread nD τ).loc main_arg6) := by
  rw [W8_of_ne m ρ c main_arg6 (by decide), at7_arg6]

theorem at8_arg7 : W8 m ρ c (Proc.devRef .tc main_arg7) = m ((c : Thread nD τ).loc main_arg7) := by
  rw [W8_of_ne m ρ c main_arg7 (by decide), at7_arg7]

theorem at8_arg8 : W8 m ρ c (Proc.devRef .tc main_arg8) = m ((c : Thread nD τ).loc main_arg8) := by
  rw [W8_of_ne m ρ c main_arg8 (by decide), at7_arg8]

/-! ## The first launch: the edge weights -/

theorem at1_weightRow : W1 m ρ c (Proc.devRef .tc main_v0) = transpose S1x8 [1, 0] (m ((c : Thread nD τ).loc main_arg3)) transposes_S8x1_S1x8_1_0 := by
  show StableHlo.after hostOps0 (W0 m ρ c) (Proc.devRef .tc main_v0) = _
  after_results

theorem at1_bias : W1 m ρ c (Proc.devRef .tc main_v1) = shapeCast S1x1 (m ((c : Thread nD τ).loc main_arg4)) shapeCasts_S1_S1x1 := by
  show StableHlo.after hostOps0 (W0 m ρ c) (Proc.devRef .tc main_v1) = _
  after_results
  rfl

/-- After the first launch its result array holds the reference's edge-weight stage of the arguments. -/
theorem at2_edgeWeights : W2 m ρ c (Proc.devRef .tc main_v2)
    = val_main_v4 (F := Ideal) (m ((c : Thread nD τ).loc main_arg1)) (m ((c : Thread nD τ).loc main_arg3)) (m ((c : Thread nD τ).loc main_arg4)) := by
  refine (W2_arr m ρ c 3).trans ?_
  refine (EdgeWeight.result (V1 m ρ) c).trans ?_
  show EdgeWeight.edgeWeight (W1 m ρ c (Proc.devRef .tc main_arg1)) (W1 m ρ c (Proc.devRef .tc main_v0)) (W1 m ρ c (Proc.devRef .tc main_v1)) = _
  rw [at1_arg1, at1_weightRow, at1_bias]
  exact Cert.Bridge.edge_join _ _ _

/-! ## The stretch between the first two launches -/

theorem at7_sources : W7 m ρ c (Proc.devRef .tc main_v7) = val_main_v9 (F := Ideal) (m ((c : Thread nD τ).loc main_arg0)) := by
  have h : W7 m ρ c (Proc.devRef .tc main_v7) = val_main_v9 (F := Ideal) (W2 m ρ c (Proc.devRef .tc main_arg0)) := by
    show StableHlo.after hostOps1_4 (StableHlo.after hostOps1_3 (StableHlo.after hostOps1_2 (StableHlo.after hostOps1_1
    (StableHlo.after hostOps1 (W2 m ρ c))))) (Proc.devRef .tc main_v7) = _
    after_results
    rfl
  rw [h, at2_arg0]

theorem at7_destinations : W7 m ρ c (Proc.devRef .tc main_v10) = val_main_v12 (F := Ideal) (m ((c : Thread nD τ).loc main_arg0)) := by
  have h : W7 m ρ c (Proc.devRef .tc main_v10) = val_main_v12 (F := Ideal) (W2 m ρ c (Proc.devRef .tc main_arg0)) := by
    show StableHlo.after hostOps1_4 (StableHlo.after hostOps1_3 (StableHlo.after hostOps1_2 (StableHlo.after hostOps1_1
    (StableHlo.after hostOps1 (W2 m ρ c))))) (Proc.devRef .tc main_v10) = _
    after_results
    rfl
  rw [h, at2_arg0]

set_option maxHeartbeats 1000000 in
theorem at7_fusedWeights : W7 m ρ c (Proc.devRef .tc main_v39)
    = Cert.Bridge.fusedWeights (m ((c : Thread nD τ).loc main_arg5)) (m ((c : Thread nD τ).loc main_arg9)) := by
  have h : W7 m ρ c (Proc.devRef .tc main_v39)
      = Cert.Bridge.fusedWeights (W2 m ρ c (Proc.devRef .tc main_arg5)) (W2 m ρ c (Proc.devRef .tc main_arg9)) := by
    show StableHlo.after hostOps1_4 (StableHlo.after hostOps1_3 (StableHlo.after hostOps1_2 (StableHlo.after hostOps1_1
    (StableHlo.after hostOps1 (W2 m ρ c))))) (Proc.devRef .tc main_v39) = _
    after_results_simp
    rfl
  rw [h, at2_arg5, at2_arg9]

set_option maxHeartbeats 1000000 in
theorem at7_fusedBias : W7 m ρ c (Proc.devRef .tc main_v42) = Cert.Bridge.fusedBias (m ((c : Thread nD τ).loc main_arg10)) := by
  have h : W7 m ρ c (Proc.devRef .tc main_v42) = Cert.Bridge.fusedBias (W2 m ρ c (Proc.devRef .tc main_arg10)) := by
    show StableHlo.after hostOps1_4 (StableHlo.after hostOps1_3 (StableHlo.after hostOps1_2 (StableHlo.after hostOps1_1
    (StableHlo.after hostOps1 (W2 m ρ c))))) (Proc.devRef .tc main_v42) = _
    after_results_simp
    rfl
  rw [h, at2_arg10]

/-! ## The second launch: the fused product -/

/-- After the second launch its result array holds x · [W₁ | Wₛ] + [0 | bₛ] of the arguments. -/
theorem at8_fused : W8 m ρ c (Proc.devRef .tc main_v43)
    = DenseTransform.affine (m ((c : Thread nD τ).loc main_arg2)) (Cert.Bridge.fusedWeights (m ((c : Thread nD τ).loc main_arg5)) (m ((c : Thread nD τ).loc main_arg9)))
        (Cert.Bridge.fusedBias (m ((c : Thread nD τ).loc main_arg10))) := by
  refine (W8_arr m ρ c 3).trans ?_
  refine (DenseTransform.result (V7 m ρ) c).trans ?_
  show DenseTransform.affine (W7 m ρ c (Proc.devRef .tc main_arg2)) (W7 m ρ c (Proc.devRef .tc main_v39)) (W7 m ρ c (Proc.devRef .tc main_v42)) = _
  rw [at7_arg2, at7_fusedWeights, at7_fusedBias]

end Cert.KernelIdeal.Walk

end
-- ==== Proof.NormWalk.lean ====
/-
  The norm, stretch by stretch.

  Between the first two launches the program computes the norm in five stretches of host operations (the two
  conditional selects around the reciprocal square root are outlined functions, each its own stretch). Each lemma here
  reads ONE stretch at ONE buffer over an arbitrary valuation V of the buffers at the stretch's entry, given what V
  holds at the few buffers the stretch reads: the degree and its two positivity masks after the first stretch; the
  guarded degree, its reciprocal square root and the guarded result after the next three; the product of the two
  gathered factors and the weight after the last. Composed along the run's boundaries they give the norm as the shared
  function of the edge-index argument and the first launch's result.
-/
import proofs.«100858_j82222853914666_2_alg».proof.Proof.Gen.KernelIdeal.Frame
import proofs.«100858_j82222853914666_2_alg».proof.Proof.Chains
import Idealize.ShloMosaic.Lib.StableHlo.Run

set_option maxRecDepth 16384

noncomputable section

namespace Cert.KernelIdeal.NormWalk

open Cert.KernelIdeal Cert.KernelIdeal.Gen Cert.ReferenceIdeal.Read Idealize.ShloMosaic Idealize.ShloMosaic.TcCoe Idealize.SL.Sem
open Idealize.ShloMosaic.StableHlo

section Stretches
variable (V : Valuation τ sig (Elt Ideal))

/-! ### The first stretch: sources, destinations, weights, degree, the two masks, the constant one -/

theorem first_sources : StableHlo.after hostOps1 V (Proc.devRef .tc main_v7) = val_main_v9 (F := Ideal) (V (Proc.devRef .tc main_arg0)) := by
  after_results
  rfl
theorem first_destinations : StableHlo.after hostOps1 V (Proc.devRef .tc main_v10) = val_main_v12 (F := Ideal) (V (Proc.devRef .tc main_arg0)) := by
  after_results
  rfl
theorem first_weights : StableHlo.after hostOps1 V (Proc.devRef .tc main_v12) = Cert.Gcn.weights (V (Proc.devRef .tc main_v2)) := by
  after_results
  rfl
theorem first_degree : StableHlo.after hostOps1 V (Proc.devRef .tc main_v15)
    = Cert.Gcn.degree (V (Proc.devRef .tc main_arg0)) (V (Proc.devRef .tc main_v2)) := by
  after_results
  rfl
theorem first_outerMask : StableHlo.after hostOps1 V (Proc.devRef .tc main_v17)
    = cmpf (F := Ideal) (φ := .f32) .ogt (Cert.Gcn.degree (V (Proc.devRef .tc main_arg0)) (V (Proc.devRef .tc main_v2))) (val_main_v18 (F := Ideal)) := by
  after_results
  rfl
theorem first_innerMask : StableHlo.after hostOps1 V (Proc.devRef .tc main_v19)
    = cmpf (F := Ideal) (φ := .f32) .ogt (Cert.Gcn.degree (V (Proc.devRef .tc main_arg0)) (V (Proc.devRef .tc main_v2))) (val_main_v20 (F := Ideal)) := by
  after_results
  rfl
theorem first_one : StableHlo.after hostOps1 V (Proc.devRef .tc main_cst_3) = val_main_cst_3 (F := Ideal) := by
  after_results
  rfl

/-! ### The second stretch: the degree where positive, one elsewhere -/

theorem second_guarded (M : IVec Cert.ReferenceIdeal.S50000 1) (D : FVec Ideal Cert.ReferenceIdeal.S50000 .f32)
    (hM : V (Proc.devRef .tc main_v19) = M) (hD : V (Proc.devRef .tc main_v15) = D) (h1 : V (Proc.devRef .tc main_cst_3) = val_main_cst_3 (F := Ideal)) :
    StableHlo.after hostOps1_1 V (Proc.devRef .tc main_v20) = select M D (val_main_call1_v1 (F := Ideal)) := by
  after_results
  rw [hM, hD, h1]
  rfl

/-! ### The third stretch: the reciprocal square root, and the constant zero -/

theorem third_rsqrt : StableHlo.after hostOps1_2 V (Proc.devRef .tc main_v21) = Host.rsqrt (F := Ideal) (φ := .f32) (V (Proc.devRef .tc main_v20)) := by
  after_results
theorem third_zero : StableHlo.after hostOps1_2 V (Proc.devRef .tc main_cst_4) = val_main_cst_4 (F := Ideal) := by
  after_results
  rfl

/-! ### The fourth stretch: that root where the degree is positive, zero elsewhere -/

theorem fourth_guarded (M : IVec Cert.ReferenceIdeal.S50000 1) (R : FVec Ideal Cert.ReferenceIdeal.S50000 .f32)
    (hM : V (Proc.devRef .tc main_v17) = M) (hR : V (Proc.devRef .tc main_v21) = R) (h0 : V (Proc.devRef .tc main_cst_4) = val_main_cst_4 (F := Ideal)) :
    StableHlo.after hostOps1_3 V (Proc.devRef .tc main_v22) = select M R (val_main_call2_v1 (F := Ideal)) := by
  after_results
  rw [hM, hR, h0]
  rfl

/-! ### The fifth stretch: source factor times weight times destination factor -/

set_option maxHeartbeats 1000000 in
theorem fifth_norm (x0 : IVec Cert.ReferenceIdeal.S2x800000 32) (D : FVec Ideal Cert.ReferenceIdeal.S50000 .f32)
    (Wt : FVec Ideal Cert.ReferenceIdeal.S850000 .f32)
    (hD : V (Proc.devRef .tc main_v22) = D) (hs : V (Proc.devRef .tc main_v7) = val_main_v9 (F := Ideal) x0)
    (hd : V (Proc.devRef .tc main_v10) = val_main_v12 (F := Ideal) x0) (hW : V (Proc.devRef .tc main_v12) = Wt) :
    StableHlo.after hostOps1_4 V (Proc.devRef .tc main_v38)
      = mulf (F := Ideal) (mulf (F := Ideal) (Host.gather Cert.ReferenceIdeal.gather_S50000_S850000x1_S850000_n_0_n_n_0_1_1 D (val_main_v30 (F := Ideal) x0)) Wt)
          (Host.gather Cert.ReferenceIdeal.gather_S50000_S850000x1_S850000_n_0_n_n_0_1_1 D (val_main_v38 (F := Ideal) x0)) := by
  after_results_simp
  rw [hD, hs, hd, hW]
  rfl

/-! ### Buffers a stretch does not write pass through it -/

theorem keepB_v7 : StableHlo.after hostOps1_1 V (Proc.devRef .tc main_v7) = V (Proc.devRef .tc main_v7) := by after_results
theorem keepB_v10 : StableHlo.after hostOps1_1 V (Proc.devRef .tc main_v10) = V (Proc.devRef .tc main_v10) := by after_results
theorem keepB_v12 : StableHlo.after hostOps1_1 V (Proc.devRef .tc main_v12) = V (Proc.devRef .tc main_v12) := by after_results
theorem keepB_v17 : StableHlo.after hostOps1_1 V (Proc.devRef .tc main_v17) = V (Proc.devRef .tc main_v17) := by after_results
theorem keepC_v7 : StableHlo.after hostOps1_2 V (Proc.devRef .tc main_v7) = V (Proc.devRef .tc main_v7) := by after_results
theorem keepC_v10 : StableHlo.after hostOps1_2 V (Proc.devRef .tc main_v10) = V (Proc.devRef .tc main_v10) := by after_results
theorem keepC_v12 : StableHlo.after hostOps1_2 V (Proc.devRef .tc main_v12) = V (Proc.devRef .tc main_v12) := by after_results
theorem keepC_v17 : StableHlo.after hostOps1_2 V (Proc.devRef .tc main_v17) = V (Proc.devRef .tc main_v17) := by after_results
theorem keepD_v7 : StableHlo.after hostOps1_3 V (Proc.devRef .tc main_v7) = V (Proc.devRef .tc main_v7) := by after_results
theorem keepD_v10 : StableHlo.after hostOps1_3 V (Proc.devRef .tc main_v10) = V (Proc.devRef .tc main_v10) := by after_results
theorem keepD_v12 : StableHlo.after hostOps1_3 V (Proc.devRef .tc main_v12) = V (Proc.devRef .tc main_v12) := by after_results

end Stretches

end Cert.KernelIdeal.NormWalk

end
-- ==== Proof.AggWalk.lean ====
/-
  The two aggregations, each one stretch of host operations.

  After the second launch the program slices the fused product into its two halves, gathers the first half's rows at
  the edge sources, scales them by the norm and sums them into the destinations; after the third launch it does the same
  with that launch's result. Each lemma reads one stretch at one buffer over an arbitrary valuation V of the buffers at
  the stretch's entry, given what V holds at the buffers the stretch reads. The aggregated buffer is the shared
  aggregation of the norm and the node matrix; the other outputs are the second half of the fused product and the two
  bias vectors reshaped to rows.
-/
import proofs.«100858_j82222853914666_2_alg».proof.Proof.Gen.KernelIdeal.Frame
import proofs.«100858_j82222853914666_2_alg».proof.Proof.Chains
import Idealize.ShloMosaic.Lib.StableHlo.Run

set_option maxRecDepth 16384

noncomputable section

namespace Cert.KernelIdeal.AggWalk

open Cert.KernelIdeal Cert.KernelIdeal.Gen Cert.ReferenceIdeal.Read Idealize.ShloMosaic Idealize.ShloMosaic.TcCoe Idealize.SL.Sem
open Idealize.ShloMosaic.StableHlo

section Stretches
variable (V : Valuation τ sig (Elt Ideal))

/-! ### The stretch after the second launch -/

set_option maxHeartbeats 1000000 in
theorem layer1_aggregate (x0 : IVec Cert.ReferenceIdeal.S2x800000 32) (N : FVec Ideal Cert.ReferenceIdeal.S850000 .f32)
    (C : FVec Ideal S50000x512 .f32)
    (hN : V (Proc.devRef .tc main_v38) = N) (hs : V (Proc.devRef .tc main_v7) = val_main_v9 (F := Ideal) x0)
    (hd : V (Proc.devRef .tc main_v10) = val_main_v12 (F := Ideal) x0) (hC : V (Proc.devRef .tc main_v43) = C) :
    StableHlo.after hostOps2 V (Proc.devRef .tc main_v58)
      = Cert.Gcn.aggregate x0 N (extractStridedSlice S50000x256 ![0, 0] C slices_S50000x512_S50000x256_0_0) := by
  after_results_simp
  rw [hN, hs, hd, hC]
  rfl

theorem layer1_residual : StableHlo.after hostOps2 V (Proc.devRef .tc main_v45)
    = extractStridedSlice S50000x256 ![0, 256] (V (Proc.devRef .tc main_v43)) slices_S50000x512_S50000x256_0_256 := by
  after_results

theorem layer1_biasRow : StableHlo.after hostOps2 V (Proc.devRef .tc main_v59)
    = shapeCast S1x256 (V (Proc.devRef .tc main_arg6)) shapeCasts_S256_S1x256 := by
  after_results
  rfl

theorem keepE_v38 : StableHlo.after hostOps2 V (Proc.devRef .tc main_v38) = V (Proc.devRef .tc main_v38) := by after_results
theorem keepE_v7 : StableHlo.after hostOps2 V (Proc.devRef .tc main_v7) = V (Proc.devRef .tc main_v7) := by after_results
theorem keepE_v10 : StableHlo.after hostOps2 V (Proc.devRef .tc main_v10) = V (Proc.devRef .tc main_v10) := by after_results
theorem keepE_arg7 : StableHlo.after hostOps2 V (Proc.devRef .tc main_arg7) = V (Proc.devRef .tc main_arg7) := by after_results
theorem keepE_arg8 : StableHlo.after hostOps2 V (Proc.devRef .tc main_arg8) = V (Proc.devRef .tc main_arg8) := by after_results

/-! ### The stretch after the third launch -/

set_option maxHeartbeats 1000000 in
theorem layer2_aggregate (x0 : IVec Cert.ReferenceIdeal.S2x800000 32) (N : FVec Ideal Cert.ReferenceIdeal.S850000 .f32)
    (H : FVec Ideal Cert.ReferenceIdeal.S50000x256 .f32)
    (hN : V (Proc.devRef .tc main_v38) = N) (hs : V (Proc.devRef .tc main_v7) = val_main_v9 (F := Ideal) x0)
    (hd : V (Proc.devRef .tc main_v10) = val_main_v12 (F := Ideal) x0) (hH : V (Proc.devRef .tc main_v60) = H) :
    StableHlo.after hostOps3 V (Proc.devRef .tc main_v73) = Cert.Gcn.aggregate x0 N H := by
  after_results_simp
  rw [hN, hs, hd, hH]
  rfl

theorem layer2_biasRow : StableHlo.after hostOps3 V (Proc.devRef .tc main_v74)
    = shapeCast S1x256 (V (Proc.devRef .tc main_arg8)) shapeCasts_S256_S1x256 := by
  after_results
  rfl

theorem keepG_v45 : StableHlo.after hostOps3 V (Proc.devRef .tc main_v45) = V (Proc.devRef .tc main_v45) := by after_results

end Stretches

end Cert.KernelIdeal.AggWalk

end
-- ==== Proof.Walk2.lean ====
/-
  What the buffers hold at the boundaries of the run, from the norm to the result.

  The per-stretch readings are composed along the boundaries: the norm after the fifth stretch is the shared norm of the
  edge-index argument and the edge weights; it, the sources and the destinations pass the second launch untouched; the
  stretch after that launch aggregates the first half of the fused product, which is x · W₁, and keeps the second half,
  which is x · Wₛ + bₛ; the third launch applies tanh, the bias and W₂; the next stretch aggregates again; the last
  launch adds the bias and the residual. Each of these is a stage of the reference, so the result buffer at the last
  boundary holds the reference's result stage of the arguments.
-/
import proofs.«100858_j82222853914666_2_alg».proof.Proof.Walk1
import proofs.«100858_j82222853914666_2_alg».proof.Proof.NormWalk
import proofs.«100858_j82222853914666_2_alg».proof.Proof.AggWalk

set_option maxRecDepth 16384

noncomputable section

namespace Cert.KernelIdeal.Walk

open Cert.KernelIdeal Cert.KernelIdeal.Gen Cert.ReferenceIdeal.Read Idealize.ShloMosaic Idealize.ShloMosaic.TcCoe Idealize.SL.Sem
open Idealize.ShloMosaic.StableHlo

variable (m : (ℓ : Loc nD τ sig) → Buf (Elt Ideal) ℓ) (ρ : Dev nD → PrngReg) (c : Dev nD)

/-! ## The norm -/

theorem at7_norm : W7 m ρ c (Proc.devRef .tc main_v38) = Cert.Gcn.norm (m ((c : Thread nD τ).loc main_arg0)) (val_main_v4 (F := Ideal) (m ((c : Thread nD τ).loc main_arg1)) (m ((c : Thread nD τ).loc main_arg3)) (m ((c : Thread nD τ).loc main_arg4))) := by
  have e3d : W3 m ρ c (Proc.devRef .tc main_v15) = (Cert.Gcn.degree (W2 m ρ c (Proc.devRef .tc main_arg0)) (W2 m ρ c (Proc.devRef .tc main_v2))) := NormWalk.first_degree (W2 m ρ c)
  have e3o : W3 m ρ c (Proc.devRef .tc main_v17) = cmpf (F := Ideal) (φ := .f32) .ogt (Cert.Gcn.degree (W2 m ρ c (Proc.devRef .tc main_arg0)) (W2 m ρ c (Proc.devRef .tc main_v2))) (val_main_v18 (F := Ideal)) :=
    NormWalk.first_outerMask (W2 m ρ c)
  have e3i : W3 m ρ c (Proc.devRef .tc main_v19) = cmpf (F := Ideal) (φ := .f32) .ogt (Cert.Gcn.degree (W2 m ρ c (Proc.devRef .tc main_arg0)) (W2 m ρ c (Proc.devRef .tc main_v2))) (val_main_v20 (F := Ideal)) :=
    NormWalk.first_innerMask (W2 m ρ c)
  have e3one : W3 m ρ c (Proc.devRef .tc main_cst_3) = val_main_cst_3 (F := Ideal) := NormWalk.first_one (W2 m ρ c)
  have e3s : W3 m ρ c (Proc.devRef .tc main_v7) = val_main_v9 (F := Ideal) (W2 m ρ c (Proc.devRef .tc main_arg0)) := NormWalk.first_sources (W2 m ρ c)
  have e3t : W3 m ρ c (Proc.devRef .tc main_v10) = val_main_v12 (F := Ideal) (W2 m ρ c (Proc.devRef .tc main_arg0)) := NormWalk.first_destinations (W2 m ρ c)
  have e3w : W3 m ρ c (Proc.devRef .tc main_v12) = Cert.Gcn.weights (W2 m ρ c (Proc.devRef .tc main_v2)) := NormWalk.first_weights (W2 m ρ c)
  have e4g : W4 m ρ c (Proc.devRef .tc main_v20)
      = select (cmpf (F := Ideal) (φ := .f32) .ogt (Cert.Gcn.degree (W2 m ρ c (Proc.devRef .tc main_arg0)) (W2 m ρ c (Proc.devRef .tc main_v2))) (val_main_v20 (F := Ideal))) (Cert.Gcn.degree (W2 m ρ c (Proc.devRef .tc main_arg0)) (W2 m ρ c (Proc.devRef .tc main_v2))) (val_main_call1_v1 (F := Ideal)) :=
    NormWalk.second_guarded (W3 m ρ c) _ _ e3i e3d e3one
  have e5r : W5 m ρ c (Proc.devRef .tc main_v21) = Host.rsqrt (F := Ideal) (φ := .f32) (W4 m ρ c (Proc.devRef .tc main_v20)) :=
    NormWalk.third_rsqrt (W4 m ρ c)
  have e5z : W5 m ρ c (Proc.devRef .tc main_cst_4) = val_main_cst_4 (F := Ideal) := NormWalk.third_zero (W4 m ρ c)
  have e5m : W5 m ρ c (Proc.devRef .tc main_v17) = cmpf (F := Ideal) (φ := .f32) .ogt (Cert.Gcn.degree (W2 m ρ c (Proc.devRef .tc main_arg0)) (W2 m ρ c (Proc.devRef .tc main_v2))) (val_main_v18 (F := Ideal)) :=
    (NormWalk.keepC_v17 (W4 m ρ c)).trans ((NormWalk.keepB_v17 (W3 m ρ c)).trans e3o)
  have e6 : W6 m ρ c (Proc.devRef .tc main_v22) = Cert.Gcn.invSqrtDegree (W2 m ρ c (Proc.devRef .tc main_arg0)) (W2 m ρ c (Proc.devRef .tc main_v2)) :=
    NormWalk.fourth_guarded (W5 m ρ c) _ _ e5m (e5r.trans (congrArg (Host.rsqrt (F := Ideal) (φ := .f32)) e4g)) e5z
  have e6s : W6 m ρ c (Proc.devRef .tc main_v7) = val_main_v9 (F := Ideal) (W2 m ρ c (Proc.devRef .tc main_arg0)) :=
    (NormWalk.keepD_v7 (W5 m ρ c)).trans ((NormWalk.keepC_v7 (W4 m ρ c)).trans ((NormWalk.keepB_v7 (W3 m ρ c)).trans e3s))
  have e6t : W6 m ρ c (Proc.devRef .tc main_v10) = val_main_v12 (F := Ideal) (W2 m ρ c (Proc.devRef .tc main_arg0)) :=
    (NormWalk.keepD_v10 (W5 m ρ c)).trans ((NormWalk.keepC_v10 (W4 m ρ c)).trans ((NormWalk.keepB_v10 (W3 m ρ c)).trans e3t))
  have e6w : W6 m ρ c (Proc.devRef .tc main_v12) = Cert.Gcn.weights (W2 m ρ c (Proc.devRef .tc main_v2)) :=
    (NormWalk.keepD_v12 (W5 m ρ c)).trans ((NormWalk.keepC_v12 (W4 m ρ c)).trans ((NormWalk.keepB_v12 (W3 m ρ c)).trans e3w))
  have e7 : W7 m ρ c (Proc.devRef .tc main_v38) = Cert.Gcn.norm (W2 m ρ c (Proc.devRef .tc main_arg0)) (W2 m ρ c (Proc.devRef .tc main_v2)) :=
    NormWalk.fifth_norm (W6 m ρ c) _ _ _ e6 e6s e6t e6w
  rw [e7, at2_arg0, at2_edgeWeights]

/-! ## Past the second launch -/

theorem at8_norm : W8 m ρ c (Proc.devRef .tc main_v38) = Cert.Gcn.norm (m ((c : Thread nD τ).loc main_arg0)) (val_main_v4 (F := Ideal) (m ((c : Thread nD τ).loc main_arg1)) (m ((c : Thread nD τ).loc main_arg3)) (m ((c : Thread nD τ).loc main_arg4))) := by
  rw [W8_of_ne m ρ c main_v38 (by decide)]; exact at7_norm m ρ c
theorem at8_sources : W8 m ρ c (Proc.devRef .tc main_v7) = val_main_v9 (F := Ideal) (m ((c : Thread nD τ).loc main_arg0)) := by
  rw [W8_of_ne m ρ c main_v7 (by decide)]; exact at7_sources m ρ c
theorem at8_destinations : W8 m ρ c (Proc.devRef .tc main_v10) = val_main_v12 (F := Ideal) (m ((c : Thread nD τ).loc main_arg0)) := by
  rw [W8_of_ne m ρ c main_v10 (by decide)]; exact at7_destinations m ρ c

/-! ## The first aggregation, the residual, the bias row -/

theorem at9_aggregate : W9 m ρ c (Proc.devRef .tc main_v58) = Cert.Gcn.aggregate (m ((c : Thread nD τ).loc main_arg0)) (Cert.Gcn.norm (m ((c : Thread nD τ).loc main_arg0)) (val_main_v4 (F := Ideal) (m ((c : Thread nD τ).loc main_arg1)) (m ((c : Thread nD τ).loc main_arg3)) (m ((c : Thread nD τ).loc main_arg4)))) (val_main_v41 (F := Ideal) (m ((c : Thread nD τ).loc main_arg2)) (m ((c : Thread nD τ).loc main_arg5))) := by
  refine (AggWalk.layer1_aggregate (W8 m ρ c) (m ((c : Thread nD τ).loc main_arg0)) (Cert.Gcn.norm (m ((c : Thread nD τ).loc main_arg0)) (val_main_v4 (F := Ideal) (m ((c : Thread nD τ).loc main_arg1)) (m ((c : Thread nD τ).loc main_arg3)) (m ((c : Thread nD τ).loc main_arg4)))) _ (at8_norm m ρ c) (at8_sources m ρ c) (at8_destinations m ρ c)
    (at8_fused m ρ c)).trans ?_
  rw [Cert.Bridge.h1_join]

theorem at9_residual : W9 m ρ c (Proc.devRef .tc main_v45) = val_main_v79 (F := Ideal) (m ((c : Thread nD τ).loc main_arg2)) (m ((c : Thread nD τ).loc main_arg9)) (m ((c : Thread nD τ).loc main_arg10)) := by
  refine (AggWalk.layer1_residual (W8 m ρ c)).trans ?_
  rw [at8_fused]
  exact Cert.Bridge.res_join _ _ _ _

theorem at9_biasRow : W9 m ρ c (Proc.devRef .tc main_v59) = shapeCast S1x256 (m ((c : Thread nD τ).loc main_arg6)) shapeCasts_S256_S1x256 := by
  refine (AggWalk.layer1_biasRow (W8 m ρ c)).trans ?_
  rw [at8_arg6]

theorem at9_arg7 : W9 m ρ c (Proc.devRef .tc main_arg7) = m ((c : Thread nD τ).loc main_arg7) :=
  (AggWalk.keepE_arg7 (W8 m ρ c)).trans (at8_arg7 m ρ c)
theorem at9_arg8 : W9 m ρ c (Proc.devRef .tc main_arg8) = m ((c : Thread nD τ).loc main_arg8) :=
  (AggWalk.keepE_arg8 (W8 m ρ c)).trans (at8_arg8 m ρ c)
theorem at9_norm : W9 m ρ c (Proc.devRef .tc main_v38) = Cert.Gcn.norm (m ((c : Thread nD τ).loc main_arg0)) (val_main_v4 (F := Ideal) (m ((c : Thread nD τ).loc main_arg1)) (m ((c : Thread nD τ).loc main_arg3)) (m ((c : Thread nD τ).loc main_arg4))) :=
  (AggWalk.keepE_v38 (W8 m ρ c)).trans (at8_norm m ρ c)
theorem at9_sources : W9 m ρ c (Proc.devRef .tc main_v7) = val_main_v9 (F := Ideal) (m ((c : Thread nD τ).loc main_arg0)) :=
  (AggWalk.keepE_v7 (W8 m ρ c)).trans (at8_sources m ρ c)
theorem at9_destinations : W9 m ρ c (Proc.devRef .tc main_v10) = val_main_v12 (F := Ideal) (m ((c : Thread nD τ).loc main_arg0)) :=
  (AggWalk.keepE_v10 (W8 m ρ c)).trans (at8_destinations m ρ c)

/-! ## The third launch and what passes it -/

theorem at10_layer : W10 m ρ c (Proc.devRef .tc main_v60) = Layer2.layer (Cert.Gcn.aggregate (m ((c : Thread nD τ).loc main_arg0)) (Cert.Gcn.norm (m ((c : Thread nD τ).loc main_arg0)) (val_main_v4 (F := Ideal) (m ((c : Thread nD τ).loc main_arg1)) (m ((c : Thread nD τ).loc main_arg3)) (m ((c : Thread nD τ).loc main_arg4)))) (val_main_v41 (F := Ideal) (m ((c : Thread nD τ).loc main_arg2)) (m ((c : Thread nD τ).loc main_arg5)))) (shapeCast S1x256 (m ((c : Thread nD τ).loc main_arg6)) shapeCasts_S256_S1x256) (m ((c : Thread nD τ).loc main_arg7)) := by
  refine (W10_arr m ρ c 3).trans ?_
  refine (Layer2.result (V9 m ρ) c).trans ?_
  show Layer2.layer (W9 m ρ c (Proc.devRef .tc main_v58)) (W9 m ρ c (Proc.devRef .tc main_v59)) (W9 m ρ c (Proc.devRef .tc main_arg7)) = _
  rw [at9_aggregate, at9_biasRow, at9_arg7]

theorem at10_norm : W10 m ρ c (Proc.devRef .tc main_v38) = Cert.Gcn.norm (m ((c : Thread nD τ).loc main_arg0)) (val_main_v4 (F := Ideal) (m ((c : Thread nD τ).loc main_arg1)) (m ((c : Thread nD τ).loc main_arg3)) (m ((c : Thread nD τ).loc main_arg4))) := by
  rw [W10_of_ne m ρ c main_v38 (by decide)]; exact at9_norm m ρ c
theorem at10_sources : W10 m ρ c (Proc.devRef .tc main_v7) = val_main_v9 (F := Ideal) (m ((c : Thread nD τ).loc main_arg0)) := by
  rw [W10_of_ne m ρ c main_v7 (by decide)]; exact at9_sources m ρ c
theorem at10_destinations : W10 m ρ c (Proc.devRef .tc main_v10) = val_main_v12 (F := Ideal) (m ((c : Thread nD τ).loc main_arg0)) := by
  rw [W10_of_ne m ρ c main_v10 (by decide)]; exact at9_destinations m ρ c
theorem at10_arg8 : W10 m ρ c (Proc.devRef .tc main_arg8) = m ((c : Thread nD τ).loc main_arg8) := by
  rw [W10_of_ne m ρ c main_arg8 (by decide)]; exact at9_arg8 m ρ c
theorem at10_residual : W10 m ρ c (Proc.devRef .tc main_v45) = val_main_v79 (F := Ideal) (m ((c : Thread nD τ).loc main_arg2)) (m ((c : Thread nD τ).loc main_arg9)) (m ((c : Thread nD τ).loc main_arg10)) := by
  rw [W10_of_ne m ρ c main_v45 (by decide)]; exact at9_residual m ρ c

/-! ## The second aggregation and the last launch -/

theorem at11_aggregate : W11 m ρ c (Proc.devRef .tc main_v73) = Cert.Gcn.aggregate (m ((c : Thread nD τ).loc main_arg0)) (Cert.Gcn.norm (m ((c : Thread nD τ).loc main_arg0)) (val_main_v4 (F := Ideal) (m ((c : Thread nD τ).loc main_arg1)) (m ((c : Thread nD τ).loc main_arg3)) (m ((c : Thread nD τ).loc main_arg4)))) (Layer2.layer (Cert.Gcn.aggregate (m ((c : Thread nD τ).loc main_arg0)) (Cert.Gcn.norm (m ((c : Thread nD τ).loc main_arg0)) (val_main_v4 (F := Ideal) (m ((c : Thread nD τ).loc main_arg1)) (m ((c : Thread nD τ).loc main_arg3)) (m ((c : Thread nD τ).loc main_arg4)))) (val_main_v41 (F := Ideal) (m ((c : Thread nD τ).loc main_arg2)) (m ((c : Thread nD τ).loc main_arg5)))) (shapeCast S1x256 (m ((c : Thread nD τ).loc main_arg6)) shapeCasts_S256_S1x256) (m ((c : Thread nD τ).loc main_arg7))) :=
  AggWalk.layer2_aggregate (W10 m ρ c) (m ((c : Thread nD τ).loc main_arg0)) (Cert.Gcn.norm (m ((c : Thread nD τ).loc main_arg0)) (val_main_v4 (F := Ideal) (m ((c : Thread nD τ).loc main_arg1)) (m ((c : Thread nD τ).loc main_arg3)) (m ((c : Thread nD τ).loc main_arg4)))) (Layer2.layer (Cert.Gcn.aggregate (m ((c : Thread nD τ).loc main_arg0)) (Cert.Gcn.norm (m ((c : Thread nD τ).loc main_arg0)) (val_main_v4 (F := Ideal) (m ((c : Thread nD τ).loc main_arg1)) (m ((c : Thread nD τ).loc main_arg3)) (m ((c : Thread nD τ).loc main_arg4)))) (val_main_v41 (F := Ideal) (m ((c : Thread nD τ).loc main_arg2)) (m ((c : Thread nD τ).loc main_arg5)))) (shapeCast S1x256 (m ((c : Thread nD τ).loc main_arg6)) shapeCasts_S256_S1x256) (m ((c : Thread nD τ).loc main_arg7))) (at10_norm m ρ c) (at10_sources m ρ c) (at10_destinations m ρ c)
    (at10_layer m ρ c)

theorem at11_biasRow : W11 m ρ c (Proc.devRef .tc main_v74) = shapeCast S1x256 (m ((c : Thread nD τ).loc main_arg8)) shapeCasts_S256_S1x256 := by
  refine (AggWalk.layer2_biasRow (W10 m ρ c)).trans ?_
  rw [at10_arg8]

theorem at11_residual : W11 m ρ c (Proc.devRef .tc main_v45) = val_main_v79 (F := Ideal) (m ((c : Thread nD τ).loc main_arg2)) (m ((c : Thread nD τ).loc main_arg9)) (m ((c : Thread nD τ).loc main_arg10)) :=
  (AggWalk.keepG_v45 (W10 m ρ c)).trans (at10_residual m ρ c)

/-- At the last boundary the result buffer holds the reference's result stage of the arguments. -/
theorem at12_result : W12 m ρ c (Proc.devRef .tc main_v75)
    = val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) := by
  refine (W12_arr m ρ c 3).trans ?_
  refine (FinalAdd.result (V11 m ρ) c).trans ?_
  show FinalAdd.biasedSum (W11 m ρ c (Proc.devRef .tc main_v73)) (W11 m ρ c (Proc.devRef .tc main_v74)) (W11 m ρ c (Proc.devRef .tc main_v45)) = _
  rw [at11_aggregate, at11_biasRow, at11_residual, Cert.Bridge.out_ref, Cert.Gcn.agg2_ref, Cert.Bridge.h2_ref,
    Cert.Gcn.agg1_ref, Cert.Gcn.norm_ref]

end Cert.KernelIdeal.Walk

end
-- ==== Proof.lean ====
/-
  A two-layer graph convolution with learned edge weights and a skip connection, computed two ways.

  Both programs take an edge list, edge features, node features and the weights of four linear maps. Each edge gets the
  weight softplus (features · wₑ + bₑ); every node gets a self-loop of weight one; each edge slot is scaled by
  1/√(degree of its source) · 1/√(degree of its destination), a node of degree not positive contributing zero. A layer
  multiplies the node matrix by a weight matrix, gathers its rows at the edge sources, scales them, and sums them into
  the destinations; the result is  layer₂ (tanh (layer₁ (x) + b₁)) + b₂ + (x · Wₛ + bₛ).

  The reference does all of this in host operations. The kernel program does the dense parts in four launches — the
  edge weights as a lane sum through softplus; x · [W₁ | Wₛ] + [0 | bₛ] in one product, later cut in two; tanh (· + b₁) · W₂;
  the final two additions — and leaves the gathers and scatters to the same host operations as the reference.

  On the extended reals the two agree entry by entry, with no hypothesis on the inputs: a lane sum of products is the
  dot product; narrowing a factor to a shorter float format is the identity; adding the zero half of the fused bias adds
  nothing; both softplus guards test whether a value differs from itself, which none does; and the shared gathers and
  scatters are applied to equal arrays. Each launch's result is read off its generated frame as one whole-array
  function, the host stretches are read one buffer at a time, and the result buffer at the end of the run is shown to
  hold the reference's result stage of the arguments.
-/
import proofs.«100858_j82222853914666_2_alg».proof.Defs
import proofs.«100858_j82222853914666_2_alg».proof.Proof.Gen.Kernel
import proofs.«100858_j82222853914666_2_alg».proof.Proof.Gen.Kernel.Skeleton
import proofs.«100858_j82222853914666_2_alg».proof.Proof.Gen.Kernel.Launch
import proofs.«100858_j82222853914666_2_alg».proof.Proof.Gen.Kernel.Points
import proofs.«100858_j82222853914666_2_alg».proof.Proof.Gen.Kernel.Frame
import proofs.«100858_j82222853914666_2_alg».proof.Proof.Gen.KernelIdeal
import proofs.«100858_j82222853914666_2_alg».proof.Proof.Gen.KernelIdeal.Skeleton
import proofs.«100858_j82222853914666_2_alg».proof.Proof.Gen.KernelIdeal.Launch
import proofs.«100858_j82222853914666_2_alg».proof.Proof.Gen.KernelIdeal.Points
import proofs.«100858_j82222853914666_2_alg».proof.Proof.Gen.KernelIdeal.Frame
import proofs.«100858_j82222853914666_2_alg».proof.Proof.Gen.ReferenceIdeal
import proofs.«100858_j82222853914666_2_alg».proof.Proof.Gen.Pre_finite_inputs
import proofs.«100858_j82222853914666_2_alg».proof.Proof.Gen.ReferenceIdeal.Run
import proofs.«100858_j82222853914666_2_alg».proof.Proof.Gen.ReferenceIdeal.Read
import proofs.«100858_j82222853914666_2_alg».proof.Proof.KernelRun
import proofs.«100858_j82222853914666_2_alg».proof.Proof.Walk2
import Idealize.ShloMosaic.Adequacy
import Idealize.ShloMosaic.Init

noncomputable section

namespace Cert.Proof

open Idealize.ShloMosaic Idealize.SL.Sem

/-- The printed kernel program runs and leaves its arguments as launched. -/
theorem frame_kernel : Cert.frame_Kernel := fun m ρ _ => Cert.Kernel.Gen.frame m ρ

/-- So does its reading on the extended reals. -/
theorem frame_kernelIdeal : Cert.frame_KernelIdeal := fun m ρ _ => Cert.KernelIdeal.Gen.frame m ρ

/-- The reference runs and leaves its arguments as launched: its run, with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the arguments both programs run, and end with the same result: the kernel program's
    result buffer ends at the last boundary's contents, which are the reference's result stage of the arguments; the
    reference's result buffer ends at that same stage of its own, equal, arguments. -/
theorem algebraic : Cert.algebraic_KernelIdeal_ReferenceIdeal := by
  intro m ρ m' ρ' _ hagree
  refine ⟨fun c => Cert.KernelIdeal.Gen.W12 m ρ c (Proc.devRef .tc Cert.KernelIdeal.main_v75),
    Cert.KernelIdeal.Result.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10⟩ := hagree c
  show Cert.ReferenceIdeal.Value.res_main_v80 m' c
    = Cert.KernelIdeal.Gen.W12 m ρ c (Proc.devRef .tc Cert.KernelIdeal.main_v75)
  rw [Cert.ReferenceIdeal.Read.val_main_v80_eq, Cert.KernelIdeal.Walk.at12_result, h0, h1, h2, h3, h4, h5, h6, h7, h8, h9, h10]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
